-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000x32 : Shape := ⟨2, ![1600000, 32]⟩
abbrev S2x1600000 : Shape := ⟨2, ![2, 1600000]⟩
abbrev S100000 : Shape := ⟨1, ![100000]⟩
abbrev S256x5 : Shape := ⟨2, ![256, 5]⟩
abbrev S5 : Shape := ⟨1, ![5]⟩
abbrev S32x5 : Shape := ⟨2, ![32, 5]⟩
abbrev S5x1 : Shape := ⟨2, ![5, 1]⟩
abbrev S1 : Shape := ⟨1, ![1]⟩
abbrev S32x1 : Shape := ⟨2, ![32, 1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S256x5 : S_.BroadcastsInDim S256x5 (![] : Fin 0 → Fin S256x5.rank)
  reducesTo_S256x5_S_d0_1 : S256x5.ReducesTo [0, 1] S_
  bcast_S_S5 : S_.BroadcastsInDim S5 (![] : Fin 0 → Fin S5.rank)
  reducesTo_S5_S_d0 : S5.ReducesTo [0] S_
  bcast_S_S32x5 : S_.BroadcastsInDim S32x5 (![] : Fin 0 → Fin S32x5.rank)
  reducesTo_S32x5_S_d0_1 : S32x5.ReducesTo [0, 1] S_
  bcast_S_S5x1 : S_.BroadcastsInDim S5x1 (![] : Fin 0 → Fin S5x1.rank)
  reducesTo_S5x1_S_d0_1 : S5x1.ReducesTo [0, 1] S_
  bcast_S_S1 : S_.BroadcastsInDim S1 (![] : Fin 0 → Fin S1.rank)
  reducesTo_S1_S_d0 : S1.ReducesTo [0] S_
  bcast_S_S32x1 : S_.BroadcastsInDim S32x1 (![] : Fin 0 → Fin S32x1.rank)
  reducesTo_S32x1_S_d0_1 : S32x1.ReducesTo [0, 1] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg23 : FVec F S32x1 .f32) (main_arg24 : FVec F S1 .f32) (main_arg25 : FVec F S5x1 .f32) (main_arg26 : FVec F S1 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_v104 : FVec F S32x1 .f32 := Host.absf main_arg23
  let main_cst_40 : FVec F S_ .f32 := constant S_ .f32 0x7F800000#32
  let main_v105 : FVec F S32x1 .f32 := broadcastInDim S32x1 ![] bcast_S_S32x1 main_cst_40
  let main_v106 : IVec S32x1 1 := cmpf .olt main_v104 main_v105
  let main_c_41 : IVec S_ 1 := constantI S_ 1 1#1
  let main_v107 : IVec S_ 1 := (fun x v => Host.reduce IntOp.andi x v reducesTo_S32x1_S_d0_1 h_S_) main_v106 main_c_41
  let main_v108 : IVec S_ 1 := andi main_v103 main_v107
  let main_v109 : FVec F S1 .f32 := Host.absf main_arg24
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_v114 : FVec F S5x1 .f32 := Host.absf main_arg25
  let main_cst_44 : FVec F S_ .f32 := constant S_ .f32 0x7F800000#32
  let main_v115 : FVec F S5x1 .f32 := broadcastInDim S5x1 ![] bcast_S_S5x1 main_cst_44
  let main_v116 : IVec S5x1 1 := cmpf .olt main_v114 main_v115
  let main_c_45 : IVec S_ 1 := constantI S_ 1 1#1
  let main_v117 : IVec S_ 1 := (fun x v => Host.reduce IntOp.andi x v reducesTo_S5x1_S_d0_1 h_S_) main_v116 main_c_45
  let main_v118 : IVec S_ 1 := andi main_v113 main_v117
  let main_v119 : FVec F S1 .f32 := Host.absf main_arg26
  fn_part7 (F := F) main_v118 main_v119

def fn_part5 {F : FTy → Type} [FloatOps F] (main_arg20 : FVec F S1 .f32) (main_arg21 : FVec F S5x1 .f32) (main_arg22 : FVec F S1 .f32) (main_arg23 : FVec F S32x1 .f32) (main_arg24 : FVec F S1 .f32) (main_arg25 : FVec F S5x1 .f32) (main_arg26 : FVec F S1 .f32) (main_v83 : IVec S_ 1) (main_v84 : FVec F S5x1 .f32) (main_cst_32 : FVec F S_ .f32) : IVec S_ 1 :=
  let main_v85 : FVec F S5x1 .f32 := broadcastInDim S5x1 ![] bcast_S_S5x1 main_cst_32
  let main_v86 : IVec S5x1 1 := cmpf .olt main_v84 main_v85
  let main_c_33 : IVec S_ 1 := constantI S_ 1 1#1
  let main_v87 : IVec S_ 1 := (fun x v => Host.reduce IntOp.andi x v reducesTo_S5x1_S_d0_1 h_S_) main_v86 main_c_33
  let main_v88 : IVec S_ 1 := andi main_v83 main_v87
  let main_v89 : FVec F S1 .f32 := Host.absf main_arg20
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S5x1 .f32 := Host.absf main_arg21
  let main_cst_36 : FVec F S_ .f32 := constant S_ .f32 0x7F800000#32
  let main_v95 : FVec F S5x1 .f32 := broadcastInDim S5x1 ![] bcast_S_S5x1 main_cst_36
  let main_v96 : IVec S5x1 1 := cmpf .olt main_v94 main_v95
  let main_c_37 : IVec S_ 1 := constantI S_ 1 1#1
  let main_v97 : IVec S_ 1 := (fun x v => Host.reduce IntOp.andi x v reducesTo_S5x1_S_d0_1 h_S_) main_v96 main_c_37
  let main_v98 : IVec S_ 1 := andi main_v93 main_v97
  let main_v99 : FVec F S1 .f32 := Host.absf main_arg22
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S5 .f32) (main_arg17 : FVec F S5x1 .f32) (main_arg18 : FVec F S1 .f32) (main_arg19 : FVec F S5x1 .f32) (main_arg20 : FVec F S1 .f32) (main_arg21 : FVec F S5x1 .f32) (main_arg22 : FVec F S1 .f32) (main_arg23 : FVec F S32x1 .f32) (main_arg24 : FVec F S1 .f32) (main_arg25 : FVec F S5x1 .f32) (main_arg26 : FVec F S1 .f32) (main_v63 : IVec S_ 1) (main_v67 : IVec S_ 1) : IVec S_ 1 :=
  let main_v68 : IVec S_ 1 := andi main_v63 main_v67
  let main_v69 : FVec F S5 .f32 := Host.absf main_arg16
  let main_cst_26 : FVec F S_ .f32 := constant S_ .f32 0x7F800000#32
  let main_v70 : FVec F S5 .f32 := broadcastInDim S5 ![] bcast_S_S5 main_cst_26
  let main_v71 : IVec S5 1 := cmpf .olt main_v69 main_v70
  let main_c_27 : IVec S_ 1 := constantI S_ 1 1#1
  let main_v72 : IVec S_ 1 := (fun x v => Host.reduce IntOp.andi x v reducesTo_S5_S_d0 h_S_) main_v71 main_c_27
  let main_v73 : IVec S_ 1 := andi main_v68 main_v72
  let main_v74 : FVec F S5x1 .f32 := Host.absf main_arg17
  let main_cst_28 : FVec F S_ .f32 := constant S_ .f32 0x7F800000#32
  let main_v75 : FVec F S5x1 .f32 := broadcastInDim S5x1 ![] bcast_S_S5x1 main_cst_28
  let main_v76 : IVec S5x1 1 := cmpf .olt main_v74 main_v75
  let main_c_29 : IVec S_ 1 := constantI S_ 1 1#1
  let main_v77 : IVec S_ 1 := (fun x v => Host.reduce IntOp.andi x v reducesTo_S5x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S5x1 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S5 .f32) (main_arg14 : FVec F S5 .f32) (main_arg15 : FVec F S5 .f32) (main_arg16 : FVec F S5 .f32) (main_arg17 : FVec F S5x1 .f32) (main_arg18 : FVec F S1 .f32) (main_arg19 : FVec F S5x1 .f32) (main_arg20 : FVec F S1 .f32) (main_arg21 : FVec F S5x1 .f32) (main_arg22 : FVec F S1 .f32) (main_arg23 : FVec F S32x1 .f32) (main_arg24 : FVec F S1 .f32) (main_arg25 : FVec F S5x1 .f32) (main_arg26 : FVec F S1 .f32) (main_v48 : IVec S_ 1) (main_v49 : FVec F S256x5 .f32) (main_v50 : FVec F S256x5 .f32) : IVec S_ 1 :=
  let main_v51 : IVec S256x5 1 := cmpf .olt main_v49 main_v50
  let main_c_19 : IVec S_ 1 := constantI S_ 1 1#1
  let main_v52 : IVec S_ 1 := (fun x v => Host.reduce IntOp.andi x v reducesTo_S256x5_S_d0_1 h_S_) main_v51 main_c_19
  let main_v53 : IVec S_ 1 := andi main_v48 main_v52
  let main_v54 : FVec F S5 .f32 := Host.absf main_arg13
  let main_cst_20 : FVec F S_ .f32 := constant S_ .f32 0x7F800000#32
  let main_v55 : FVec F S5 .f32 := broadcastInDim S5 ![] bcast_S_S5 main_cst_20
  let main_v56 : IVec S5 1 := cmpf .olt main_v54 main_v55
  let main_c_21 : IVec S_ 1 := constantI S_ 1 1#1
  let main_v57 : IVec S_ 1 := (fun x v => Host.reduce IntOp.andi x v reducesTo_S5_S_d0 h_S_) main_v56 main_c_21
  let main_v58 : IVec S_ 1 := andi main_v53 main_v57
  let main_v59 : FVec F S5 .f32 := Host.absf main_arg14
  let main_cst_22 : FVec F S_ .f32 := constant S_ .f32 0x7F800000#32
  let main_v60 : FVec F S5 .f32 := broadcastInDim S5 ![] bcast_S_S5 main_cst_22
  let main_v61 : IVec S5 1 := cmpf .olt main_v59 main_v60
  let main_c_23 : IVec S_ 1 := constantI S_ 1 1#1
  let main_v62 : IVec S_ 1 := (fun x v => Host.reduce IntOp.andi x v reducesTo_S5_S_d0 h_S_) main_v61 main_c_23
  let main_v63 : IVec S_ 1 := andi main_v58 main_v62
  let main_v64 : FVec F S5 .f32 := Host.absf main_arg15
  let main_cst_24 : FVec F S_ .f32 := constant S_ .f32 0x7F800000#32
  let main_v65 : FVec F S5 .f32 := broadcastInDim S5 ![] bcast_S_S5 main_cst_24
  let main_v66 : IVec S5 1 := cmpf .olt main_v64 main_v65
  let main_c_25 : IVec S_ 1 := constantI S_ 1 1#1
  let main_v67 : IVec S_ 1 := (fun x v => Host.reduce IntOp.andi x v reducesTo_S5_S_d0 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S5 .f32) (main_arg10 : FVec F S32x5 .f32) (main_arg11 : FVec F S5 .f32) (main_arg12 : FVec F S256x5 .f32) (main_arg13 : FVec F S5 .f32) (main_arg14 : FVec F S5 .f32) (main_arg15 : FVec F S5 .f32) (main_arg16 : FVec F S5 .f32) (main_arg17 : FVec F S5x1 .f32) (main_arg18 : FVec F S1 .f32) (main_arg19 : FVec F S5x1 .f32) (main_arg20 : FVec F S1 .f32) (main_arg21 : FVec F S5x1 .f32) (main_arg22 : FVec F S1 .f32) (main_arg23 : FVec F S32x1 .f32) (main_arg24 : FVec F S1 .f32) (main_arg25 : FVec F S5x1 .f32) (main_arg26 : FVec F S1 .f32) (main_v33 : IVec S_ 1) : IVec S_ 1 :=
  let main_v34 : FVec F S5 .f32 := Host.absf main_arg9
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  let main_v39 : FVec F S32x5 .f32 := Host.absf main_arg10
  let main_cst_14 : FVec F S_ .f32 := constant S_ .f32 0x7F800000#32
  let main_v40 : FVec F S32x5 .f32 := broadcastInDim S32x5 ![] bcast_S_S32x5 main_cst_14
  let main_v41 : IVec S32x5 1 := cmpf .olt main_v39 main_v40
  let main_c_15 : IVec S_ 1 := constantI S_ 1 1#1
  let main_v42 : IVec S_ 1 := (fun x v => Host.reduce IntOp.andi x v reducesTo_S32x5_S_d0_1 h_S_) main_v41 main_c_15
  let main_v43 : IVec S_ 1 := andi main_v38 main_v42
  let main_v44 : FVec F S5 .f32 := Host.absf main_arg11
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  let main_v49 : FVec F S256x5 .f32 := Host.absf main_arg12
  let main_cst_18 : FVec F S_ .f32 := constant S_ .f32 0x7F800000#32
  let main_v50 : FVec F S256x5 .f32 := broadcastInDim S256x5 ![] bcast_S_S256x5 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S256x5 .f32) (main_arg7 : FVec F S5 .f32) (main_arg8 : FVec F S256x5 .f32) (main_arg9 : FVec F S5 .f32) (main_arg10 : FVec F S32x5 .f32) (main_arg11 : FVec F S5 .f32) (main_arg12 : FVec F S256x5 .f32) (main_arg13 : FVec F S5 .f32) (main_arg14 : FVec F S5 .f32) (main_arg15 : FVec F S5 .f32) (main_arg16 : FVec F S5 .f32) (main_arg17 : FVec F S5x1 .f32) (main_arg18 : FVec F S1 .f32) (main_arg19 : FVec F S5x1 .f32) (main_arg20 : FVec F S1 .f32) (main_arg21 : FVec F S5x1 .f32) (main_arg22 : FVec F S1 .f32) (main_arg23 : FVec F S32x1 .f32) (main_arg24 : FVec F S1 .f32) (main_arg25 : FVec F S5x1 .f32) (main_arg26 : FVec F S1 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S256x5 .f32 := Host.absf main_arg6
  let main_cst_6 : FVec F S_ .f32 := constant S_ .f32 0x7F800000#32
  let main_v20 : FVec F S256x5 .f32 := broadcastInDim S256x5 ![] bcast_S_S256x5 main_cst_6
  let main_v21 : IVec S256x5 1 := cmpf .olt main_v19 main_v20
  let main_c_7 : IVec S_ 1 := constantI S_ 1 1#1
  let main_v22 : IVec S_ 1 := (fun x v => Host.reduce IntOp.andi x v reducesTo_S256x5_S_d0_1 h_S_) main_v21 main_c_7
  let main_v23 : IVec S_ 1 := andi main_v18 main_v22
  let main_v24 : FVec F S5 .f32 := Host.absf main_arg7
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  let main_v29 : FVec F S256x5 .f32 := Host.absf main_arg8
  let main_cst_10 : FVec F S_ .f32 := constant S_ .f32 0x7F800000#32
  let main_v30 : FVec F S256x5 .f32 := broadcastInDim S256x5 ![] bcast_S_S256x5 main_cst_10
  let main_v31 : IVec S256x5 1 := cmpf .olt main_v29 main_v30
  let main_c_11 : IVec S_ 1 := constantI S_ 1 1#1
  let main_v32 : IVec S_ 1 := (fun x v => Host.reduce IntOp.andi x v reducesTo_S256x5_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x256 .f32) (main_arg1 : FVec F S1600000x32 .f32) (main_arg2 : IVec S2x1600000 32) (main_arg3 : IVec S100000 32) (main_arg4 : FVec F S256x5 .f32) (main_arg5 : FVec F S5 .f32) (main_arg6 : FVec F S256x5 .f32) (main_arg7 : FVec F S5 .f32) (main_arg8 : FVec F S256x5 .f32) (main_arg9 : FVec F S5 .f32) (main_arg10 : FVec F S32x5 .f32) (main_arg11 : FVec F S5 .f32) (main_arg12 : FVec F S256x5 .f32) (main_arg13 : FVec F S5 .f32) (main_arg14 : FVec F S5 .f32) (main_arg15 : FVec F S5 .f32) (main_arg16 : FVec F S5 .f32) (main_arg17 : FVec F S5x1 .f32) (main_arg18 : FVec F S1 .f32) (main_arg19 : FVec F S5x1 .f32) (main_arg20 : FVec F S1 .f32) (main_arg21 : FVec F S5x1 .f32) (main_arg22 : FVec F S1 .f32) (main_arg23 : FVec F S32x1 .f32) (main_arg24 : FVec F S1 .f32) (main_arg25 : FVec F S5x1 .f32) (main_arg26 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S256x5 .f32 := Host.absf main_arg4
  let main_cst_2 : FVec F S_ .f32 := constant S_ .f32 0x7F800000#32
  let main_v10 : FVec F S256x5 .f32 := broadcastInDim S256x5 ![] bcast_S_S256x5 main_cst_2
  let main_v11 : IVec S256x5 1 := cmpf .olt main_v9 main_v10
  let main_c_3 : IVec S_ 1 := constantI S_ 1 1#1
  let main_v12 : IVec S_ 1 := (fun x v => Host.reduce IntOp.andi x v reducesTo_S256x5_S_d0_1 h_S_) main_v11 main_c_3
  let main_v13 : IVec S_ 1 := andi main_v8 main_v12
  let main_v14 : FVec F S5 .f32 := Host.absf main_arg5
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x256 : Shape := ⟨2, ![100000, 256]⟩
abbrev S1600000x32 : Shape := ⟨2, ![1600000, 32]⟩
abbrev S2x1600000 : Shape := ⟨2, ![2, 1600000]⟩
abbrev S100000 : Shape := ⟨1, ![100000]⟩
abbrev S256x5 : Shape := ⟨2, ![256, 5]⟩
abbrev S5 : Shape := ⟨1, ![5]⟩
abbrev S32x5 : Shape := ⟨2, ![32, 5]⟩
abbrev S5x1 : Shape := ⟨2, ![5, 1]⟩
abbrev S1 : Shape := ⟨1, ![1]⟩
abbrev S32x1 : Shape := ⟨2, ![32, 1]⟩
abbrev S1x1600000 : Shape := ⟨2, ![1, 1600000]⟩
abbrev S1600000 : Shape := ⟨1, ![1600000]⟩
abbrev S256x20 : Shape := ⟨2, ![256, 20]⟩
abbrev S20 : Shape := ⟨1, ![20]⟩
abbrev S32x6 : Shape := ⟨2, ![32, 6]⟩
abbrev S6 : Shape := ⟨1, ![6]⟩
abbrev S1x20 : Shape := ⟨2, ![1, 20]⟩
abbrev S100000x20 : Shape := ⟨2, ![100000, 20]⟩
abbrev S5000x256 : Shape := ⟨2, ![5000, 256]⟩
abbrev S5000x20 : Shape := ⟨2, ![5000, 20]⟩
abbrev S1x6 : Shape := ⟨2, ![1, 6]⟩
abbrev S1600000x6 : Shape := ⟨2, ![1600000, 6]⟩
abbrev S8000x32 : Shape := ⟨2, ![8000, 32]⟩
abbrev S8000x6 : Shape := ⟨2, ![8000, 6]⟩
abbrev S100000x5 : Shape := ⟨2, ![100000, 5]⟩
abbrev S1600000x5 : Shape := ⟨2, ![1600000, 5]⟩
abbrev S1600000x1 : Shape := ⟨2, ![1600000, 1]⟩
abbrev S_ : Shape := ⟨0, ![]⟩
abbrev S100000x1 : Shape := ⟨2, ![100000, 1]⟩
abbrev S64x1 : Shape := ⟨2, ![64, 1]⟩
abbrev S64x5 : Shape := ⟨2, ![64, 5]⟩
abbrev S1x5 : Shape := ⟨2, ![1, 5]⟩
abbrev S5x4 : Shape := ⟨2, ![5, 4]⟩
abbrev S4 : Shape := ⟨1, ![4]⟩
abbrev S1x4 : Shape := ⟨2, ![1, 4]⟩
abbrev S100000x4 : Shape := ⟨2, ![100000, 4]⟩
abbrev S2000x5 : Shape := ⟨2, ![2000, 5]⟩
abbrev S2000x4 : Shape := ⟨2, ![2000, 4]⟩

abbrev nBuf : Space → Nat
  | .hbm => 213
  | .vmem => 18
  | .smem => 0
  | _ => 0

abbrev hbmTy0_0 (i : Nat) : BufTy := match i % 128 with
  | 0 => ⟨S100000x256, .f32⟩
  | 1 => ⟨S1600000x32, .f32⟩
  | 2 => ⟨S2x1600000, .i32⟩
  | 3 => ⟨S100000, .i32⟩
  | 4 => ⟨S256x5, .f32⟩
  | 5 => ⟨S5, .f32⟩
  | 6 => ⟨S256x5, .f32⟩
  | 7 => ⟨S5, .f32⟩
  | 8 => ⟨S256x5, .f32⟩
  | 9 => ⟨S5, .f32⟩
  | 10 => ⟨S32x5, .f32⟩
  | 11 => ⟨S5, .f32⟩
  | 12 => ⟨S256x5, .f32⟩
  | 13 => ⟨S5, .f32⟩
  | 14 => ⟨S5, .f32⟩
  | 15 => ⟨S5, .f32⟩
  | 16 => ⟨S5, .f32⟩
  | 17 => ⟨S5x1, .f32⟩
  | 18 => ⟨S1, .f32⟩
  | 19 => ⟨S5x1, .f32⟩
  | 20 => ⟨S1, .f32⟩
  | 21 => ⟨S5x1, .f32⟩
  | 22 => ⟨S1, .f32⟩
  | 23 => ⟨S32x1, .f32⟩
  | 24 => ⟨S1, .f32⟩
  | 25 => ⟨S5x1, .f32⟩
  | 26 => ⟨S1, .f32⟩
  | 27 => ⟨S1x1600000, .i32⟩
  | 28 => ⟨S1600000, .i32⟩
  | 29 => ⟨S1x1600000, .i32⟩
  | 30 => ⟨S1600000, .i32⟩
  | 31 => ⟨S256x20, .f32⟩
  | 32 => ⟨S20, .f32⟩
  | 33 => ⟨S32x6, .f32⟩
  | 34 => ⟨S6, .f32⟩
  | 35 => ⟨S1x20, .f32⟩
  | 36 => ⟨S100000x20, .f32⟩
  | 37 => ⟨S1x6, .f32⟩
  | 38 => ⟨S1600000x6, .f32⟩
  | 39 => ⟨S100000x5, .f32⟩
  | 40 => ⟨S100000x5, .f32⟩
  | 41 => ⟨S100000x5, .f32⟩
  | 42 => ⟨S100000x5, .f32⟩
  | 43 => ⟨S1600000x5, .f32⟩
  | 44 => ⟨S1600000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x5, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x5, .f32⟩
  | 63 => ⟨S1600000x5, .f32⟩
  | 64 => ⟨S_, .f32⟩
  | 65 => ⟨S1600000x5, .f32⟩
  | 66 => ⟨S1600000x5, .f32⟩
  | 67 => ⟨S1600000x5, .f32⟩
  | 68 => ⟨S1600000x5, .f32⟩
  | 69 => ⟨S1600000x5, .f32⟩
  | 70 => ⟨S_, .f32⟩
  | 71 => ⟨S1600000x5, .f32⟩
  | 72 => ⟨S1600000x5, .f32⟩
  | 73 => ⟨S_, .f32⟩
  | 74 => ⟨S1600000x5, .f32⟩
  | 75 => ⟨S1600000x5, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x5, .f32⟩
  | 85 => ⟨S1600000x5, .f32⟩
  | 86 => ⟨S1600000x5, .f32⟩
  | 87 => ⟨S_, .f32⟩
  | 88 => ⟨S100000x5, .f32⟩
  | 89 => ⟨S1600000x1, .i32⟩
  | 90 => ⟨S100000x5, .f32⟩
  | 91 => ⟨S100000x5, .f32⟩
  | 92 => ⟨S_, .f32⟩
  | 93 => ⟨S100000x1, .f32⟩
  | 94 => ⟨S_, .f32⟩
  | 95 => ⟨S64x1, .f32⟩
  | 96 => ⟨S100000x1, .i32⟩
  | 97 => ⟨S64x1, .f32⟩
  | 98 => ⟨S_, .f32⟩
  | 99 => ⟨S64x1, .f32⟩
  | 100 => ⟨S64x1, .f32⟩
  | 101 => ⟨S_, .f32⟩
  | 102 => ⟨S64x5, .f32⟩
  | 103 => ⟨S100000x1, .i32⟩
  | 104 => ⟨S64x5, .f32⟩
  | 105 => ⟨S64x5, .f32⟩
  | 106 => ⟨S64x5, .f32⟩
  | 107 => ⟨S_, .i32⟩
  | 108 => ⟨S100000, .i32⟩
  | 109 => ⟨S100000, .i1⟩
  | 110 => ⟨S_, .i32⟩
  | 111 => ⟨S100000, .i32⟩
  | 112 => ⟨S100000, .i32⟩
  | 113 => ⟨S100000, .i32⟩
  | 114 => ⟨S100000x1, .i32⟩
  | 115 => ⟨S100000x5, .f32⟩
  | 116 => ⟨S1x5, .f32⟩
  | 117 => ⟨S100000x5, .f32⟩
  | 118 => ⟨S100000x5, .f32⟩
  | 119 => ⟨S100000x5, .f32⟩
  | 120 => ⟨S100000x5, .f32⟩
  | 121 => ⟨S_, .f32⟩
  | 122 => ⟨S64x5, .f32⟩
  | 123 => ⟨S100000x1, .i32⟩
  | 124 => ⟨S64x5, .f32⟩
  | 125 => ⟨S64x5, .f32⟩
  | 126 => ⟨S64x5, .f32⟩
  | 127 => ⟨S_, .f32⟩
  | _ => ⟨S100000x256, .f32⟩

abbrev hbmTy0_1 (i : Nat) : BufTy := match i % 128 with
  | 0 => ⟨S64x5, .f32⟩
  | 1 => ⟨S64x5, .f32⟩
  | 2 => ⟨S64x5, .f32⟩
  | 3 => ⟨S1x5, .f32⟩
  | 4 => ⟨S100000x5, .f32⟩
  | 5 => ⟨S100000x5, .f32⟩
  | 6 => ⟨S_, .i32⟩
  | 7 => ⟨S100000, .i32⟩
  | 8 => ⟨S100000, .i1⟩
  | 9 => ⟨S_, .i32⟩
  | 10 => ⟨S100000, .i32⟩
  | 11 => ⟨S100000, .i32⟩
  | 12 => ⟨S100000, .i32⟩
  | 13 => ⟨S100000x1, .i32⟩
  | 14 => ⟨S100000x5, .f32⟩
  | 15 => ⟨S100000x5, .f32⟩
  | 16 => ⟨S1x5, .f32⟩
  | 17 => ⟨S100000x5, .f32⟩
  | 18 => ⟨S100000x5, .f32⟩
  | 19 => ⟨S_, .f32⟩
  | 20 => ⟨S100000x5, .f32⟩
  | 21 => ⟨S100000x5, .f32⟩
  | 22 => ⟨S5x4, .f32⟩
  | 23 => ⟨S4, .f32⟩
  | 24 => ⟨S1x4, .f32⟩
  | 25 => ⟨S100000x4, .f32⟩
  | 26 => ⟨S100000x1, .f32⟩
  | 27 => ⟨S100000x1, .f32⟩
  | 28 => ⟨S100000x1, .f32⟩
  | 29 => ⟨S100000x1, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x1, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x1, .f32⟩
  | 48 => ⟨S1600000x1, .f32⟩
  | 49 => ⟨S_, .f32⟩
  | 50 => ⟨S1600000x1, .f32⟩
  | 51 => ⟨S1600000x1, .f32⟩
  | 52 => ⟨S1600000x1, .f32⟩
  | 53 => ⟨S1600000x1, .f32⟩
  | 54 => ⟨S1600000x1, .f32⟩
  | 55 => ⟨S_, .f32⟩
  | 56 => ⟨S1600000x1, .f32⟩
  | 57 => ⟨S1600000x1, .f32⟩
  | 58 => ⟨S_, .f32⟩
  | 59 => ⟨S1600000x1, .f32⟩
  | 60 => ⟨S1600000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x1, .f32⟩
  | 70 => ⟨S1600000x1, .f32⟩
  | 71 => ⟨S1600000x1, .f32⟩
  | 72 => ⟨S_, .f32⟩
  | 73 => ⟨S100000x1, .f32⟩
  | 74 => ⟨S1600000x1, .i32⟩
  | 75 => ⟨S100000x1, .f32⟩
  | 76 => ⟨S100000x1, .f32⟩
  | 77 => ⟨S100000x1, .f32⟩
  | 78 => ⟨S100000x1, .f32⟩
  | 79 => ⟨S_, .f32⟩
  | 80 => ⟨S100000x1, .f32⟩
  | 81 => ⟨S100000x1, .f32⟩
  | 82 => ⟨S_, .f32⟩
  | 83 => ⟨S100000x1, .f32⟩
  | 84 => ⟨S100000x1, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x20, .f32⟩
  | .local _ .vmem, ⟨3, _⟩ => ⟨S1x20, .f32⟩
  | .local _ .vmem, ⟨4, _⟩ => ⟨S5000x20, .f32⟩
  | .local _ .vmem, ⟨5, _⟩ => ⟨S5000x20, .f32⟩
  | .local _ .vmem, ⟨6, _⟩ => ⟨S8000x32, .f32⟩
  | .local _ .vmem, ⟨7, _⟩ => ⟨S8000x32, .f32⟩
  | .local _ .vmem, ⟨8, _⟩ => ⟨S32x6, .f32⟩
  | .local _ .vmem, ⟨9, _⟩ => ⟨S1x6, .f32⟩
  | .local _ .vmem, ⟨10, _⟩ => ⟨S8000x6, .f32⟩
  | .local _ .vmem, ⟨11, _⟩ => ⟨S8000x6, .f32⟩
  | .local _ .vmem, ⟨12, _⟩ => ⟨S2000x5, .f32⟩
  | .local _ .vmem, ⟨13, _⟩ => ⟨S2000x5, .f32⟩
  | .local _ .vmem, ⟨14, _⟩ => ⟨S5x4, .f32⟩
  | .local _ .vmem, ⟨15, _⟩ => ⟨S1x4, .f32⟩
  | .local _ .vmem, ⟨16, _⟩ => ⟨S2000x4, .f32⟩
  | .local _ .vmem, ⟨17, _⟩ => ⟨S2000x4, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_0 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_1 : Ref sig .tc := ⟨.hbm, 54, rfl⟩
abbrev main_v25 : Ref sig .tc := ⟨.hbm, 55, rfl⟩
abbrev main_v26 : Ref sig .tc := ⟨.hbm, 56, rfl⟩
abbrev main_c_2 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_3 : Ref sig .tc := ⟨.hbm, 70, rfl⟩
abbrev main_v38 : Ref sig .tc := ⟨.hbm, 71, rfl⟩
abbrev main_v39 : Ref sig .tc := ⟨.hbm, 72, rfl⟩
abbrev main_cst_4 : Ref sig .tc := ⟨.hbm, 73, rfl⟩
abbrev main_v40 : Ref sig .tc := ⟨.hbm, 74, rfl⟩
abbrev main_v41 : Ref sig .tc := ⟨.hbm, 75, rfl⟩
abbrev main_c_5 : Ref sig .tc := ⟨.hbm, 76, rfl⟩
abbrev main_v42 : Ref sig .tc := ⟨.hbm, 77, rfl⟩
abbrev main_v43 : Ref sig .tc := ⟨.hbm, 78, rfl⟩
abbrev main_c_6 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_7 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_8 : Ref sig .tc := ⟨.hbm, 92, rfl⟩
abbrev main_v55 : Ref sig .tc := ⟨.hbm, 93, rfl⟩
abbrev main_cst_9 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_10 : Ref sig .tc := ⟨.hbm, 98, rfl⟩
abbrev main_v59 : Ref sig .tc := ⟨.hbm, 99, rfl⟩
abbrev main_v60 : Ref sig .tc := ⟨.hbm, 100, rfl⟩
abbrev main_cst_11 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_c_12 : Ref sig .tc := ⟨.hbm, 107, rfl⟩
abbrev main_v66 : Ref sig .tc := ⟨.hbm, 108, rfl⟩
abbrev main_v67 : Ref sig .tc := ⟨.hbm, 109, rfl⟩
abbrev main_c_13 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_14 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_15 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_c_16 : Ref sig .tc := ⟨.hbm, 134, rfl⟩
abbrev main_v89 : Ref sig .tc := ⟨.hbm, 135, rfl⟩
abbrev main_v90 : Ref sig .tc := ⟨.hbm, 136, rfl⟩
abbrev main_c_17 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_call0_cst : Ref sig .tc := ⟨.hbm, 147, rfl⟩
abbrev main_call0_v0 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_c_18 : Ref sig .tc := ⟨.hbm, 158, rfl⟩
abbrev main_v109 : Ref sig .tc := ⟨.hbm, 159, rfl⟩
abbrev main_v110 : Ref sig .tc := ⟨.hbm, 160, rfl⟩
abbrev main_c_19 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_c_20 : Ref sig .tc := ⟨.hbm, 167, rfl⟩
abbrev main_v116 : Ref sig .tc := ⟨.hbm, 168, rfl⟩
abbrev main_v117 : Ref sig .tc := ⟨.hbm, 169, rfl⟩
abbrev main_c_21 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_22 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_23 : Ref sig .tc := ⟨.hbm, 183, rfl⟩
abbrev main_v129 : Ref sig .tc := ⟨.hbm, 184, rfl⟩
abbrev main_v130 : Ref sig .tc := ⟨.hbm, 185, rfl⟩
abbrev main_cst_24 : Ref sig .tc := ⟨.hbm, 186, rfl⟩
abbrev main_v131 : Ref sig .tc := ⟨.hbm, 187, rfl⟩
abbrev main_v132 : Ref sig .tc := ⟨.hbm, 188, rfl⟩
abbrev main_c_25 : Ref sig .tc := ⟨.hbm, 189, rfl⟩
abbrev main_v133 : Ref sig .tc := ⟨.hbm, 190, rfl⟩
abbrev main_v134 : Ref sig .tc := ⟨.hbm, 191, rfl⟩
abbrev main_c_26 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_cst_27 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_28 : Ref sig .tc := ⟨.hbm, 207, rfl⟩
abbrev main_v148 : Ref sig .tc := ⟨.hbm, 208, rfl⟩
abbrev main_v149 : Ref sig .tc := ⟨.hbm, 209, rfl⟩
abbrev main_cst_29 : Ref sig .tc := ⟨.hbm, 210, rfl⟩
abbrev main_v150 : Ref sig .tc := ⟨.hbm, 211, rfl⟩
abbrev main_v151 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x6 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x6 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x6 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x5 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S5x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x4 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S256x5_S256x5_S256x5_S256x5_S256x20_d1 : Shape.Concatenates [S256x5, S256x5, S256x5, S256x5] S256x20 1
  concatenates_S5_S5_S5_S5_S20_d0 : Shape.Concatenates [S5, S5, S5, S5] S20 0
  concatenates_S32x5_S32x1_S32x6_d1 : Shape.Concatenates [S32x5, S32x1] S32x6 1
  concatenates_S5_S1_S6_d0 : Shape.Concatenates [S5, S1] S6 0
  shapeCasts_S20_S1x20 : S20.ShapeCasts S1x20
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x20_S256x20_0_0 : ∀ a, (![0, 0] : Fin 2 → Nat) a + S256x20.size a ≤ S256x20.size a
  h_S256x20 : 0 < S256x20.numel
  shapeCasts_S256x20_S256x20 : S256x20.ShapeCasts S256x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S5000x20 : S1x20.Broadcasts S5000x20
  inb_S5000x20_S5000x20_0_0 : ∀ a, (![0, 0] : Fin 2 → Nat) a + S5000x20.size a ≤ S5000x20.size a
  h_S5000x20 : 0 < S5000x20.numel
  shapeCasts_S6_S1x6 : S6.ShapeCasts S1x6
  inb_S8000x32_S8000x32_0_0 : ∀ a, (![0, 0] : Fin 2 → Nat) a + S8000x32.size a ≤ S8000x32.size a
  h_S8000x32 : 0 < S8000x32.numel
  inb_S32x6_S32x6_0_0 : ∀ a, (![0, 0] : Fin 2 → Nat) a + S32x6.size a ≤ S32x6.size a
  h_S32x6 : 0 < S32x6.numel
  shapeCasts_S32x6_S32x6 : S32x6.ShapeCasts S32x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S8000x6 : S1x6.Broadcasts S8000x6
  inb_S8000x6_S8000x6_0_0 : ∀ a, (![0, 0] : Fin 2 → Nat) a + S8000x6.size a ≤ S8000x6.size a
  h_S8000x6 : 0 < S8000x6.numel
  slices_S100000x20_S100000x5_0_0 : S100000x20.Slices ![0, 0] S100000x5
  slices_S100000x20_S100000x5_0_5 : S100000x20.Slices ![0, 5] S100000x5
  slices_S100000x20_S100000x5_0_10 : S100000x20.Slices ![0, 10] S100000x5
  slices_S100000x20_S100000x5_0_15 : S100000x20.Slices ![0, 15] S100000x5
  slices_S1600000x6_S1600000x5_0_0 : S1600000x6.Slices ![0, 0] S1600000x5
  slices_S1600000x6_S1600000x1_0_5 : S1600000x6.Slices ![0, 5] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x5 : S_.BroadcastsInDim S1600000x5 (![] : Fin 0 → Fin S1600000x5.rank)
  bcast_S_S100000x5 : S_.BroadcastsInDim S100000x5 (![] : Fin 0 → Fin S100000x5.rank)
  bcast_S_S100000x1 : S_.BroadcastsInDim S100000x1 (![] : Fin 0 → Fin S100000x1.rank)
  bcast_S_S64x1 : S_.BroadcastsInDim S64x1 (![] : Fin 0 → Fin S64x1.rank)
  bcast_S100000_S100000x1_0 : S100000.BroadcastsInDim S100000x1 (![0] : Fin 1 → Fin S100000x1.rank)
  bcast_S_S64x5 : S_.BroadcastsInDim S64x5 (![] : Fin 0 → Fin S64x5.rank)
  bcast_S64x1_S64x5_0_1 : S64x1.BroadcastsInDim S64x5 (![0, 1] : Fin 2 → Fin S64x5.rank)
  bcast_S_S100000 : S_.BroadcastsInDim S100000 (![] : Fin 0 → Fin S100000.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  concatenates_S5x1_S5x1_S5x1_S5x1_S5x4_d1 : Shape.Concatenates [S5x1, S5x1, S5x1, S5x1] S5x4 1
  concatenates_S1_S1_S1_S1_S4_d0 : Shape.Concatenates [S1, S1, S1, S1] S4 0
  shapeCasts_S4_S1x4 : S4.ShapeCasts S1x4
  inb_S2000x5_S2000x5_0_0 : ∀ a, (![0, 0] : Fin 2 → Nat) a + S2000x5.size a ≤ S2000x5.size a
  h_S2000x5 : 0 < S2000x5.numel
  shapeCasts_S2000x5_S2000x5 : S2000x5.ShapeCasts S2000x5
  inb_S5x4_S5x4_0_0 : ∀ a, (![0, 0] : Fin 2 → Nat) a + S5x4.size a ≤ S5x4.size a
  h_S5x4 : 0 < S5x4.numel
  shapeCasts_S5x4_S5x4 : S5x4.ShapeCasts S5x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  inb_S2000x4_S2000x4_0_0 : ∀ a, (![0, 0] : Fin 2 → Nat) a + S2000x4.size a ≤ S2000x4.size a
  h_S2000x4 : 0 < S2000x4.numel
  slices_S100000x4_S100000x1_0_0 : S100000x4.Slices ![0, 0] S100000x1
  slices_S100000x4_S100000x1_0_1 : S100000x4.Slices ![0, 1] S100000x1
  slices_S100000x4_S100000x1_0_2 : S100000x4.Slices ![0, 2] S100000x1
  slices_S100000x4_S100000x1_0_3 : S100000x4.Slices ![0, 3] S100000x1
  bcast_S_S1600000x1 : S_.BroadcastsInDim S1600000x1 (![] : Fin 0 → Fin S1600000x1.rank)
  dot_S5000x256_S256x20_S5000x20_1_0_0_1_n_n_wf : DotDims.WF S5000x256 S256x20 S5000x20 [1] [0] [0] [1] [] []
  dot_S8000x32_S32x6_S8000x6_1_0_0_1_n_n_wf : DotDims.WF S8000x32 S32x6 S8000x6 [1] [0] [0] [1] [] []
  gather_S100000x5_S1600000x1_S1600000x5_1_0_n_n_0_1_15_wf : GatherDims.WF S100000x5 S1600000x1 S1600000x5 [1] [0] [] [0] [] 1 ![1, 5]
  scatter_S100000x5_S1600000x1_S1600000x5_1_0_0_1_wf : ScatterDims.WF S100000x5 S1600000x1 S1600000x5 [1] [0] [0] 1
  scatter_S64x1_S100000x1_S100000x1_1_0_0_1_wf : ScatterDims.WF S64x1 S100000x1 S100000x1 [1] [0] [0] 1
  scatter_S64x5_S100000x1_S100000x5_1_0_0_1_wf : ScatterDims.WF S64x5 S100000x1 S100000x5 [1] [0] [0] 1
  gather_S64x5_S100000x1_S100000x5_1_0_n_n_0_1_15_wf : GatherDims.WF S64x5 S100000x1 S100000x5 [1] [0] [] [0] [] 1 ![1, 5]
  dot_S2000x5_S5x4_S2000x4_1_0_0_1_n_n_wf : DotDims.WF S2000x5 S5x4 S2000x4 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x20.size a ≤ S256x20.size a
  hwx0_1 : ∀ i : grid0.Coords, EltTy.bits .f32 = 32 ∨ (Rect.block (s := S256x20) S256x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x20.size a ≤ S100000x20.size a
  hwx0_3 : ∀ i : grid0.Coords, EltTy.bits .f32 = 32 ∨ (Rect.block (s := S100000x20) S5000x20.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S1600000x32.size a
  hwx1_0 : ∀ i : grid1.Coords, EltTy.bits .f32 = 32 ∨ (Rect.block (s := S1600000x32) S8000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x6.size a ≤ S32x6.size a
  hwx1_1 : ∀ i : grid1.Coords, EltTy.bits .f32 = 32 ∨ (Rect.block (s := S32x6) S32x6.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x6.size a ≤ S1x6.size a
  hwx1_2 : ∀ i : grid1.Coords, EltTy.bits .f32 = 32 ∨ (Rect.block (s := S1x6) S1x6.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x6.size a ≤ S1600000x6.size a
  hwx1_3 : ∀ i : grid1.Coords, EltTy.bits .f32 = 32 ∨ (Rect.block (s := S1600000x6) S8000x6.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x5.size a ≤ S100000x5.size a
  hwx2_0 : ∀ i : grid2.Coords, EltTy.bits .f32 = 32 ∨ (Rect.block (s := S100000x5) S2000x5.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S5x4.size a ≤ S5x4.size a
  hwx2_1 : ∀ i : grid2.Coords, EltTy.bits .f32 = 32 ∨ (Rect.block (s := S5x4) S5x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4.size a ≤ S1x4.size a
  hwx2_2 : ∀ i : grid2.Coords, EltTy.bits .f32 = 32 ∨ (Rect.block (s := S1x4) S1x4.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x4.size a ≤ S100000x4.size a
  hwx2_3 : ∀ i : grid2.Coords, EltTy.bits .f32 = 32 ∨ (Rect.block (s := S100000x4) S2000x4.size (cc2_transform_3 i) (hinb2_3 i)).WholeWords (EltTy.packing .f32)

variable [Facts₀]

def dot_S5000x256_S256x20_S5000x20_1_0_0_1_n_n : DotDims S5000x256 S256x20 S5000x20 where
  lhsContracting := [1]
  rhsContracting := [0]
  lhsNonContracting := [0]
  rhsNonContracting := [1]
  lhsBatch := []
  rhsBatch := []
  wf := dot_S5000x256_S256x20_S5000x20_1_0_0_1_n_n_wf
def dot_S8000x32_S32x6_S8000x6_1_0_0_1_n_n : DotDims S8000x32 S32x6 S8000x6 where
  lhsContracting := [1]
  rhsContracting := [0]
  lhsNonContracting := [0]
  rhsNonContracting := [1]
  lhsBatch := []
  rhsBatch := []
  wf := dot_S8000x32_S32x6_S8000x6_1_0_0_1_n_n_wf
def gather_S100000x5_S1600000x1_S1600000x5_1_0_n_n_0_1_15 : GatherDims S100000x5 S1600000x1 S1600000x5 where
  offsetDims := [1]
  collapsedSliceDims := [0]
  operandBatchingDims := []
  startIndicesBatchingDims := []
  startIndexMap := [0]
  indexVectorDim := 1
  sliceSizes := ![1, 5]
  wf := gather_S100000x5_S1600000x1_S1600000x5_1_0_n_n_0_1_15_wf
def scatter_S100000x5_S1600000x1_S1600000x5_1_0_0_1 : ScatterDims S100000x5 S1600000x1 S1600000x5 where
  updateWindowDims := [1]
  insertedWindowDims := [0]
  scatterDimsToOperandDims := [0]
  indexVectorDim := 1
  wf := scatter_S100000x5_S1600000x1_S1600000x5_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def scatter_S64x5_S100000x1_S100000x5_1_0_0_1 : ScatterDims S64x5 S100000x1 S100000x5 where
  updateWindowDims := [1]
  insertedWindowDims := [0]
  scatterDimsToOperandDims := [0]
  indexVectorDim := 1
  wf := scatter_S64x5_S100000x1_S100000x5_1_0_0_1_wf
def gather_S64x5_S100000x1_S100000x5_1_0_n_n_0_1_15 : GatherDims S64x5 S100000x1 S100000x5 where
  offsetDims := [1]
  collapsedSliceDims := [0]
  operandBatchingDims := []
  startIndicesBatchingDims := []
  startIndexMap := [0]
  indexVectorDim := 1
  sliceSizes := ![1, 5]
  wf := gather_S64x5_S100000x1_S100000x5_1_0_n_n_0_1_15_wf
def dot_S2000x5_S5x4_S2000x4_1_0_0_1_n_n : DotDims S2000x5 S5x4 S2000x4 where
  lhsContracting := [1]
  rhsContracting := [0]
  lhsNonContracting := [0]
  rhsNonContracting := [1]
  lhsBatch := []
  rhsBatch := []
  wf := dot_S2000x5_S5x4_S2000x4_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S5000x20.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S32x6.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x6.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S8000x6.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v100) S2000x5.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v101) S5x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v103) S1x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v104) S2000x4.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S1600000x32 : Shape := ⟨2, ![1600000, 32]⟩
abbrev S2x1600000 : Shape := ⟨2, ![2, 1600000]⟩
abbrev S100000 : Shape := ⟨1, ![100000]⟩
abbrev S256x5 : Shape := ⟨2, ![256, 5]⟩
abbrev S5 : Shape := ⟨1, ![5]⟩
abbrev S32x5 : Shape := ⟨2, ![32, 5]⟩
abbrev S5x1 : Shape := ⟨2, ![5, 1]⟩
abbrev S1 : Shape := ⟨1, ![1]⟩
abbrev S32x1 : Shape := ⟨2, ![32, 1]⟩
abbrev S1x1600000 : Shape := ⟨2, ![1, 1600000]⟩
abbrev S1600000 : Shape := ⟨1, ![1600000]⟩
abbrev S100000x5 : Shape := ⟨2, ![100000, 5]⟩
abbrev S1x5 : Shape := ⟨2, ![1, 5]⟩
abbrev S1600000x5 : Shape := ⟨2, ![1600000, 5]⟩
abbrev S_ : Shape := ⟨0, ![]⟩
abbrev S1600000x1 : Shape := ⟨2, ![1600000, 1]⟩
abbrev S100000x1 : Shape := ⟨2, ![100000, 1]⟩
abbrev S64x1 : Shape := ⟨2, ![64, 1]⟩
abbrev S64x5 : Shape := ⟨2, ![64, 5]⟩
abbrev S1x1 : Shape := ⟨2, ![1, 1]⟩

abbrev nBuf : Space → Nat
  | .hbm => 231
  | .vmem => 0
  | .smem => 0
  | _ => 0

abbrev hbmTy0_0 (i : Nat) : BufTy := match i % 128 with
  | 0 => ⟨S100000x256, .f32⟩
  | 1 => ⟨S1600000x32, .f32⟩
  | 2 => ⟨S2x1600000, .i32⟩
  | 3 => ⟨S100000, .i32⟩
  | 4 => ⟨S256x5, .f32⟩
  | 5 => ⟨S5, .f32⟩
  | 6 => ⟨S256x5, .f32⟩
  | 7 => ⟨S5, .f32⟩
  | 8 => ⟨S256x5, .f32⟩
  | 9 => ⟨S5, .f32⟩
  | 10 => ⟨S32x5, .f32⟩
  | 11 => ⟨S5, .f32⟩
  | 12 => ⟨S256x5, .f32⟩
  | 13 => ⟨S5, .f32⟩
  | 14 => ⟨S5, .f32⟩
  | 15 => ⟨S5, .f32⟩
  | 16 => ⟨S5, .f32⟩
  | 17 => ⟨S5x1, .f32⟩
  | 18 => ⟨S1, .f32⟩
  | 19 => ⟨S5x1, .f32⟩
  | 20 => ⟨S1, .f32⟩
  | 21 => ⟨S5x1, .f32⟩
  | 22 => ⟨S1, .f32⟩
  | 23 => ⟨S32x1, .f32⟩
  | 24 => ⟨S1, .f32⟩
  | 25 => ⟨S5x1, .f32⟩
  | 26 => ⟨S1, .f32⟩
  | 27 => ⟨S1x1600000, .i32⟩
  | 28 => ⟨S1600000, .i32⟩
  | 29 => ⟨S1x1600000, .i32⟩
  | 30 => ⟨S1600000, .i32⟩
  | 31 => ⟨S100000x5, .f32⟩
  | 32 => ⟨S1x5, .f32⟩
  | 33 => ⟨S100000x5, .f32⟩
  | 34 => ⟨S100000x5, .f32⟩
  | 35 => ⟨S100000x5, .f32⟩
  | 36 => ⟨S1x5, .f32⟩
  | 37 => ⟨S100000x5, .f32⟩
  | 38 => ⟨S100000x5, .f32⟩
  | 39 => ⟨S100000x5, .f32⟩
  | 40 => ⟨S1x5, .f32⟩
  | 41 => ⟨S100000x5, .f32⟩
  | 42 => ⟨S100000x5, .f32⟩
  | 43 => ⟨S1600000x5, .f32⟩
  | 44 => ⟨S1x5, .f32⟩
  | 45 => ⟨S1600000x5, .f32⟩
  | 46 => ⟨S1600000x5, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x5, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x5, .f32⟩
  | 65 => ⟨S1600000x5, .f32⟩
  | 66 => ⟨S_, .f32⟩
  | 67 => ⟨S1600000x5, .f32⟩
  | 68 => ⟨S1600000x5, .f32⟩
  | 69 => ⟨S1600000x5, .f32⟩
  | 70 => ⟨S1600000x5, .f32⟩
  | 71 => ⟨S1600000x5, .f32⟩
  | 72 => ⟨S_, .f32⟩
  | 73 => ⟨S1600000x5, .f32⟩
  | 74 => ⟨S1600000x5, .f32⟩
  | 75 => ⟨S_, .f32⟩
  | 76 => ⟨S1600000x5, .f32⟩
  | 77 => ⟨S1600000x5, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x5, .f32⟩
  | 87 => ⟨S1600000x5, .f32⟩
  | 88 => ⟨S1600000x5, .f32⟩
  | 89 => ⟨S_, .f32⟩
  | 90 => ⟨S100000x5, .f32⟩
  | 91 => ⟨S1600000x1, .i32⟩
  | 92 => ⟨S100000x5, .f32⟩
  | 93 => ⟨S100000x5, .f32⟩
  | 94 => ⟨S100000x5, .f32⟩
  | 95 => ⟨S1x5, .f32⟩
  | 96 => ⟨S100000x5, .f32⟩
  | 97 => ⟨S100000x5, .f32⟩
  | 98 => ⟨S_, .f32⟩
  | 99 => ⟨S100000x1, .f32⟩
  | 100 => ⟨S_, .f32⟩
  | 101 => ⟨S64x1, .f32⟩
  | 102 => ⟨S100000x1, .i32⟩
  | 103 => ⟨S64x1, .f32⟩
  | 104 => ⟨S_, .f32⟩
  | 105 => ⟨S64x1, .f32⟩
  | 106 => ⟨S64x1, .f32⟩
  | 107 => ⟨S_, .f32⟩
  | 108 => ⟨S64x5, .f32⟩
  | 109 => ⟨S100000x1, .i32⟩
  | 110 => ⟨S64x5, .f32⟩
  | 111 => ⟨S64x5, .f32⟩
  | 112 => ⟨S64x5, .f32⟩
  | 113 => ⟨S_, .i32⟩
  | 114 => ⟨S100000, .i32⟩
  | 115 => ⟨S100000, .i1⟩
  | 116 => ⟨S_, .i32⟩
  | 117 => ⟨S100000, .i32⟩
  | 118 => ⟨S100000, .i32⟩
  | 119 => ⟨S100000, .i32⟩
  | 120 => ⟨S100000x1, .i32⟩
  | 121 => ⟨S100000x5, .f32⟩
  | 122 => ⟨S1x5, .f32⟩
  | 123 => ⟨S100000x5, .f32⟩
  | 124 => ⟨S100000x5, .f32⟩
  | 125 => ⟨S100000x5, .f32⟩
  | 126 => ⟨S100000x5, .f32⟩
  | 127 => ⟨S_, .f32⟩
  | _ => ⟨S100000x256, .f32⟩

abbrev hbmTy0_1 (i : Nat) : BufTy := match i % 128 with
  | 0 => ⟨S64x5, .f32⟩
  | 1 => ⟨S100000x1, .i32⟩
  | 2 => ⟨S64x5, .f32⟩
  | 3 => ⟨S64x5, .f32⟩
  | 4 => ⟨S64x5, .f32⟩
  | 5 => ⟨S_, .f32⟩
  | 6 => ⟨S64x5, .f32⟩
  | 7 => ⟨S64x5, .f32⟩
  | 8 => ⟨S64x5, .f32⟩
  | 9 => ⟨S1x5, .f32⟩
  | 10 => ⟨S100000x5, .f32⟩
  | 11 => ⟨S100000x5, .f32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000x5, .f32⟩
  | 21 => ⟨S100000x5, .f32⟩
  | 22 => ⟨S1x5, .f32⟩
  | 23 => ⟨S100000x5, .f32⟩
  | 24 => ⟨S100000x5, .f32⟩
  | 25 => ⟨S_, .f32⟩
  | 26 => ⟨S100000x5, .f32⟩
  | 27 => ⟨S100000x5, .f32⟩
  | 28 => ⟨S100000x1, .f32⟩
  | 29 => ⟨S1x1, .f32⟩
  | 30 => ⟨S100000x1, .f32⟩
  | 31 => ⟨S100000x1, .f32⟩
  | 32 => ⟨S100000x1, .f32⟩
  | 33 => ⟨S1x1, .f32⟩
  | 34 => ⟨S100000x1, .f32⟩
  | 35 => ⟨S100000x1, .f32⟩
  | 36 => ⟨S100000x1, .f32⟩
  | 37 => ⟨S1x1, .f32⟩
  | 38 => ⟨S100000x1, .f32⟩
  | 39 => ⟨S100000x1, .f32⟩
  | 40 => ⟨S1600000x1, .f32⟩
  | 41 => ⟨S1x1, .f32⟩
  | 42 => ⟨S1600000x1, .f32⟩
  | 43 => ⟨S1600000x1, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x1, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x1, .f32⟩
  | 62 => ⟨S1600000x1, .f32⟩
  | 63 => ⟨S_, .f32⟩
  | 64 => ⟨S1600000x1, .f32⟩
  | 65 => ⟨S1600000x1, .f32⟩
  | 66 => ⟨S1600000x1, .f32⟩
  | 67 => ⟨S1600000x1, .f32⟩
  | 68 => ⟨S1600000x1, .f32⟩
  | 69 => ⟨S_, .f32⟩
  | 70 => ⟨S1600000x1, .f32⟩
  | 71 => ⟨S1600000x1, .f32⟩
  | 72 => ⟨S_, .f32⟩
  | 73 => ⟨S1600000x1, .f32⟩
  | 74 => ⟨S1600000x1, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x1, .f32⟩
  | 84 => ⟨S1600000x1, .f32⟩
  | 85 => ⟨S1600000x1, .f32⟩
  | 86 => ⟨S_, .f32⟩
  | 87 => ⟨S100000x1, .f32⟩
  | 88 => ⟨S1600000x1, .i32⟩
  | 89 => ⟨S100000x1, .f32⟩
  | 90 => ⟨S100000x1, .f32⟩
  | 91 => ⟨S100000x1, .f32⟩
  | 92 => ⟨S1x1, .f32⟩
  | 93 => ⟨S100000x1, .f32⟩
  | 94 => ⟨S100000x1, .f32⟩
  | 95 => ⟨S100000x1, .f32⟩
  | 96 => ⟨S100000x1, .f32⟩
  | 97 => ⟨S_, .f32⟩
  | 98 => ⟨S100000x1, .f32⟩
  | 99 => ⟨S100000x1, .f32⟩
  | 100 => ⟨S_, .f32⟩
  | 101 => ⟨S100000x1, .f32⟩
  | 102 => ⟨S100000x1, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c : Ref sig .tc := ⟨.hbm, 47, rfl⟩
abbrev main_v20 : Ref sig .tc := ⟨.hbm, 48, rfl⟩
abbrev main_v21 : Ref sig .tc := ⟨.hbm, 49, rfl⟩
abbrev main_c_0 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_1 : Ref sig .tc := ⟨.hbm, 56, rfl⟩
abbrev main_v27 : Ref sig .tc := ⟨.hbm, 57, rfl⟩
abbrev main_v28 : Ref sig .tc := ⟨.hbm, 58, rfl⟩
abbrev main_c_2 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_3 : Ref sig .tc := ⟨.hbm, 72, rfl⟩
abbrev main_v40 : Ref sig .tc := ⟨.hbm, 73, rfl⟩
abbrev main_v41 : Ref sig .tc := ⟨.hbm, 74, rfl⟩
abbrev main_cst_4 : Ref sig .tc := ⟨.hbm, 75, rfl⟩
abbrev main_v42 : Ref sig .tc := ⟨.hbm, 76, rfl⟩
abbrev main_v43 : Ref sig .tc := ⟨.hbm, 77, rfl⟩
abbrev main_c_5 : Ref sig .tc := ⟨.hbm, 78, rfl⟩
abbrev main_v44 : Ref sig .tc := ⟨.hbm, 79, rfl⟩
abbrev main_v45 : Ref sig .tc := ⟨.hbm, 80, rfl⟩
abbrev main_c_6 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_7 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_8 : Ref sig .tc := ⟨.hbm, 98, rfl⟩
abbrev main_v61 : Ref sig .tc := ⟨.hbm, 99, rfl⟩
abbrev main_cst_9 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_10 : Ref sig .tc := ⟨.hbm, 104, rfl⟩
abbrev main_v65 : Ref sig .tc := ⟨.hbm, 105, rfl⟩
abbrev main_v66 : Ref sig .tc := ⟨.hbm, 106, rfl⟩
abbrev main_cst_11 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_c_12 : Ref sig .tc := ⟨.hbm, 113, rfl⟩
abbrev main_v72 : Ref sig .tc := ⟨.hbm, 114, rfl⟩
abbrev main_v73 : Ref sig .tc := ⟨.hbm, 115, rfl⟩
abbrev main_c_13 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_14 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_15 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_c_16 : Ref sig .tc := ⟨.hbm, 140, rfl⟩
abbrev main_v95 : Ref sig .tc := ⟨.hbm, 141, rfl⟩
abbrev main_v96 : Ref sig .tc := ⟨.hbm, 142, rfl⟩
abbrev main_c_17 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_call0_cst : Ref sig .tc := ⟨.hbm, 153, rfl⟩
abbrev main_call0_v0 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_c_18 : Ref sig .tc := ⟨.hbm, 172, rfl⟩
abbrev main_v123 : Ref sig .tc := ⟨.hbm, 173, rfl⟩
abbrev main_v124 : Ref sig .tc := ⟨.hbm, 174, rfl⟩
abbrev main_c_19 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_c_20 : Ref sig .tc := ⟨.hbm, 181, rfl⟩
abbrev main_v130 : Ref sig .tc := ⟨.hbm, 182, rfl⟩
abbrev main_v131 : Ref sig .tc := ⟨.hbm, 183, rfl⟩
abbrev main_c_21 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_22 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_23 : Ref sig .tc := ⟨.hbm, 197, rfl⟩
abbrev main_v143 : Ref sig .tc := ⟨.hbm, 198, rfl⟩
abbrev main_v144 : Ref sig .tc := ⟨.hbm, 199, rfl⟩
abbrev main_cst_24 : Ref sig .tc := ⟨.hbm, 200, rfl⟩
abbrev main_v145 : Ref sig .tc := ⟨.hbm, 201, rfl⟩
abbrev main_v146 : Ref sig .tc := ⟨.hbm, 202, rfl⟩
abbrev main_c_25 : Ref sig .tc := ⟨.hbm, 203, rfl⟩
abbrev main_v147 : Ref sig .tc := ⟨.hbm, 204, rfl⟩
abbrev main_v148 : Ref sig .tc := ⟨.hbm, 205, rfl⟩
abbrev main_c_26 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_27 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_cst_28 : Ref sig .tc := ⟨.hbm, 225, rfl⟩
abbrev main_v166 : Ref sig .tc := ⟨.hbm, 226, rfl⟩
abbrev main_v167 : Ref sig .tc := ⟨.hbm, 227, rfl⟩
abbrev main_cst_29 : Ref sig .tc := ⟨.hbm, 228, rfl⟩
abbrev main_v168 : Ref sig .tc := ⟨.hbm, 229, rfl⟩
abbrev main_v169 : Ref sig .tc := ⟨.hbm, 230, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  bcast_S1x5_S1600000x5_0_1 : S1x5.BroadcastsInDim S1600000x5 (![0, 1] : Fin 2 → Fin S1600000x5.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x5 : S_.BroadcastsInDim S1600000x5 (![] : Fin 0 → Fin S1600000x5.rank)
  bcast_S_S100000x5 : S_.BroadcastsInDim S100000x5 (![] : Fin 0 → Fin S100000x5.rank)
  bcast_S_S100000x1 : S_.BroadcastsInDim S100000x1 (![] : Fin 0 → Fin S100000x1.rank)
  bcast_S_S64x1 : S_.BroadcastsInDim S64x1 (![] : Fin 0 → Fin S64x1.rank)
  bcast_S100000_S100000x1_0 : S100000.BroadcastsInDim S100000x1 (![0] : Fin 1 → Fin S100000x1.rank)
  bcast_S_S64x5 : S_.BroadcastsInDim S64x5 (![] : Fin 0 → Fin S64x5.rank)
  bcast_S64x1_S64x5_0_1 : S64x1.BroadcastsInDim S64x5 (![0, 1] : Fin 2 → Fin S64x5.rank)
  bcast_S_S100000 : S_.BroadcastsInDim S100000 (![] : Fin 0 → Fin S100000.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  dot_S100000x256_S256x5_S100000x5_1_0_0_1_n_n_wf : DotDims.WF S100000x256 S256x5 S100000x5 [1] [0] [0] [1] [] []
  dot_S1600000x32_S32x5_S1600000x5_1_0_0_1_n_n_wf : DotDims.WF S1600000x32 S32x5 S1600000x5 [1] [0] [0] [1] [] []
  gather_S100000x5_S1600000x1_S1600000x5_1_0_n_n_0_1_15_wf : GatherDims.WF S100000x5 S1600000x1 S1600000x5 [1] [0] [] [0] [] 1 ![1, 5]
  scatter_S100000x5_S1600000x1_S1600000x5_1_0_0_1_wf : ScatterDims.WF S100000x5 S1600000x1 S1600000x5 [1] [0] [0] 1
  scatter_S64x1_S100000x1_S100000x1_1_0_0_1_wf : ScatterDims.WF S64x1 S100000x1 S100000x1 [1] [0] [0] 1
  scatter_S64x5_S100000x1_S100000x5_1_0_0_1_wf : ScatterDims.WF S64x5 S100000x1 S100000x5 [1] [0] [0] 1
  gather_S64x5_S100000x1_S100000x5_1_0_n_n_0_1_15_wf : GatherDims.WF S64x5 S100000x1 S100000x5 [1] [0] [] [0] [] 1 ![1, 5]
  dot_S100000x5_S5x1_S100000x1_1_0_0_1_n_n_wf : DotDims.WF S100000x5 S5x1 S100000x1 [1] [0] [0] [1] [] []
  dot_S1600000x32_S32x1_S1600000x1_1_0_0_1_n_n_wf : DotDims.WF S1600000x32 S32x1 S1600000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1

variable [Facts₀]

def dot_S100000x256_S256x5_S100000x5_1_0_0_1_n_n : DotDims S100000x256 S256x5 S100000x5 where
  lhsContracting := [1]
  rhsContracting := [0]
  lhsNonContracting := [0]
  rhsNonContracting := [1]
  lhsBatch := []
  rhsBatch := []
  wf := dot_S100000x256_S256x5_S100000x5_1_0_0_1_n_n_wf
def dot_S1600000x32_S32x5_S1600000x5_1_0_0_1_n_n : DotDims S1600000x32 S32x5 S1600000x5 where
  lhsContracting := [1]
  rhsContracting := [0]
  lhsNonContracting := [0]
  rhsNonContracting := [1]
  lhsBatch := []
  rhsBatch := []
  wf := dot_S1600000x32_S32x5_S1600000x5_1_0_0_1_n_n_wf
def gather_S100000x5_S1600000x1_S1600000x5_1_0_n_n_0_1_15 : GatherDims S100000x5 S1600000x1 S1600000x5 where
  offsetDims := [1]
  collapsedSliceDims := [0]
  operandBatchingDims := []
  startIndicesBatchingDims := []
  startIndexMap := [0]
  indexVectorDim := 1
  sliceSizes := ![1, 5]
  wf := gather_S100000x5_S1600000x1_S1600000x5_1_0_n_n_0_1_15_wf
def scatter_S100000x5_S1600000x1_S1600000x5_1_0_0_1 : ScatterDims S100000x5 S1600000x1 S1600000x5 where
  updateWindowDims := [1]
  insertedWindowDims := [0]
  scatterDimsToOperandDims := [0]
  indexVectorDim := 1
  wf := scatter_S100000x5_S1600000x1_S1600000x5_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def scatter_S64x5_S100000x1_S100000x5_1_0_0_1 : ScatterDims S64x5 S100000x1 S100000x5 where
  updateWindowDims := [1]
  insertedWindowDims := [0]
  scatterDimsToOperandDims := [0]
  indexVectorDim := 1
  wf := scatter_S64x5_S100000x1_S100000x5_1_0_0_1_wf
def gather_S64x5_S100000x1_S100000x5_1_0_n_n_0_1_15 : GatherDims S64x5 S100000x1 S100000x5 where
  offsetDims := [1]
  collapsedSliceDims := [0]
  operandBatchingDims := []
  startIndicesBatchingDims := []
  startIndexMap := [0]
  indexVectorDim := 1
  sliceSizes := ![1, 5]
  wf := gather_S64x5_S100000x1_S100000x5_1_0_n_n_0_1_15_wf
def dot_S100000x5_S5x1_S100000x1_1_0_0_1_n_n : DotDims S100000x5 S5x1 S100000x1 where
  lhsContracting := [1]
  rhsContracting := [0]
  lhsNonContracting := [0]
  rhsNonContracting := [1]
  lhsBatch := []
  rhsBatch := []
  wf := dot_S100000x5_S5x1_S100000x1_1_0_0_1_n_n_wf
def dot_S1600000x32_S32x1_S1600000x1_1_0_0_1_n_n : DotDims S1600000x32 S32x1 S1600000x1 where
  lhsContracting := [1]
  rhsContracting := [0]
  lhsNonContracting := [0]
  rhsNonContracting := [1]
  lhsBatch := []
  rhsBatch := []
  wf := dot_S1600000x32_S32x1_S1600000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

class Facts : Prop extends Facts₀ where

variable [Facts]
-- ==== Proof.LayerBodyI.lean ====
/-
  The three dense layers of the two gated graph convolutions, each one grid of row blocks: a block of rows of the
  left matrix, the whole right matrix and the bias row go in, the block's affine image comes out. Per layer: what
  each window's staging buffer holds at a grid point, what the body leaves in the result's buffer (its one whole
  store of the product plus the broadcast bias), the body's triple, and the data the launch theorem asks for — stated
  at the contents the region is entered from, for any float interpretation.
-/
import proofs.«150417_j61237643706857_2_alg».proof.Proof.Gen.KernelIdeal.Launch
import proofs.«150417_j61237643706857_2_alg».proof.Proof.Gen.KernelIdeal.Skeleton
import proofs.«150417_j61237643706857_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on each core when the layer's region is entered: a parameter here, fixed by the run
variable (V : (c : Dev nD) → (b : Ref sig .tc) → Buf (Elt F) ((c : Thread nD τ).loc b))

/-! # The node layer of the first convolution: rows of x (5000 at a time) times the 256×20 matrix [Wk|Wq|Wv|Ws],
    plus the 1×20 bias row, written to the matching 5000 rows of the 100000×20 result -/

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of rows of x is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight matrix, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias row likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body reads and writes each buffer through its whole rectangle. -/
abbrev r0_0 : Rect S5000x256 := Rect.unit (s := S5000x256) ![0, 0] S5000x256.size inb_S5000x256_S5000x256_0_0
abbrev r0_1 : Rect S256x20 := Rect.unit (s := S256x20) ![0, 0] S256x20.size inb_S256x20_S256x20_0_0
abbrev r0_2 : Rect S1x20 := Rect.unit (s := S1x20) ![0, 0] S1x20.size inb_S1x20_S1x20_0_0
abbrev r0_3 : Rect S5000x20 := Rect.unit (s := S5000x20) ![0, 0] S5000x20.size inb_S5000x20_S5000x20_0_0

/-- What the body leaves in the result's staging buffer: its one store, of the affine image of the three blocks. -/
def out0_3 (x0 : Vec F S5000x256 .f32) (x1 : Vec F S256x20 .f32) (x2 : Vec F S1x20 .f32) : Vec F S5000x20 .f32 :=
  View.canon [⟨r0_3, k0_pay1 (View.ld x0 r0_0) (View.ld x1 r0_1) (View.ld x2 r0_2)⟩]

/-- That one store covers the buffer. -/
theorem cover0_3 (p0 : Vec F S5000x20 .f32) (y : S5000x20.Idx) :
    ∃ pc ∈ ([⟨r0_3, p0⟩] : List (View.Piece (Elt F) S5000x20 .f32)), y ∈ pc.1.set :=
  View.cover_of_tiled [⟨r0_3, p0⟩] S5000x20.size (by rfl) y

set_option maxHeartbeats 1000000 in
/-- The body's triple: from the three inputs' buffers at x0, x1, x2 and the result's at anything, it ends with the inputs'
    as they were and the result's at `out0_3 x0 x1 x2`. -/
theorem sound_kernel0 (c : Dev nD) (E : Set ℕ) (i : grid0.Coords) (arg0 : Memref sig .tc .vmem S5000x256 .f32) (harg0 : arg0.IsWhole)
    (arg1 : Memref sig .tc .vmem S256x20 .f32) (harg1 : arg1.IsWhole) (arg2 : Memref sig .tc .vmem S1x20 .f32) (harg2 : arg2.IsWhole)
    (arg3 : Memref sig .tc .vmem S5000x20 .f32) (harg3 : arg3.IsWhole)
    (x0 : Vec F S5000x256 .f32) (x1 : Vec F S256x20 .f32) (x2 : Vec F S1x20 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The layer's proof data on core c: the arrays as entered; after the body each input's buffer at its block and the
    result's at the affine image of the three blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))
/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for this layer, at every point. -/
theorem body_obligation0 (c : Dev nD) : BodyObligation (dat0 (F := F) V c) (defs₀ (F := F)) Variants.none () Set.univ := fun t => by
  rw [bigSep_W0, bigSep_W0]
  exact sound_body0 V c t

/-! # The edge layer, shared by both convolutions: rows of edge_attr (8000 at a time) times the 32×6 matrix [We1|We2],
    plus the 1×6 bias row, written to the matching 8000 rows of the 1600000×6 result -/

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of rows of edge_attr is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight matrix, fetched once, is in its staging buffer at every point: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias row likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body reads and writes each buffer through its whole rectangle. -/
abbrev r1_0 : Rect S8000x32 := Rect.unit (s := S8000x32) ![0, 0] S8000x32.size inb_S8000x32_S8000x32_0_0
abbrev r1_1 : Rect S32x6 := Rect.unit (s := S32x6) ![0, 0] S32x6.size inb_S32x6_S32x6_0_0
abbrev r1_2 : Rect S1x6 := Rect.unit (s := S1x6) ![0, 0] S1x6.size inb_S1x6_S1x6_0_0
abbrev r1_3 : Rect S8000x6 := Rect.unit (s := S8000x6) ![0, 0] S8000x6.size inb_S8000x6_S8000x6_0_0

/-- What the body leaves in the result's staging buffer: its one store, of the affine image of the three blocks. -/
def out1_3 (x0 : Vec F S8000x32 .f32) (x1 : Vec F S32x6 .f32) (x2 : Vec F S1x6 .f32) : Vec F S8000x6 .f32 :=
  View.canon [⟨r1_3, k1_pay1 (View.ld x0 r1_0) (View.ld x1 r1_1) (View.ld x2 r1_2)⟩]

/-- That one store covers the buffer. -/
theorem cover1_3 (p0 : Vec F S8000x6 .f32) (y : S8000x6.Idx) :
    ∃ pc ∈ ([⟨r1_3, p0⟩] : List (View.Piece (Elt F) S8000x6 .f32)), y ∈ pc.1.set :=
  View.cover_of_tiled [⟨r1_3, p0⟩] S8000x6.size (by rfl) y

set_option maxHeartbeats 1000000 in
/-- The body's triple: from the three inputs' buffers at x0, x1, x2 and the result's at anything, it ends with the inputs'
    as they were and the result's at `out1_3 x0 x1 x2`. -/
theorem sound_kernel1 (c : Dev nD) (E : Set ℕ) (i : grid1.Coords) (arg0 : Memref sig .tc .vmem S8000x32 .f32) (harg0 : arg0.IsWhole)
    (arg1 : Memref sig .tc .vmem S32x6 .f32) (harg1 : arg1.IsWhole) (arg2 : Memref sig .tc .vmem S1x6 .f32) (harg2 : arg2.IsWhole)
    (arg3 : Memref sig .tc .vmem S8000x6 .f32) (harg3 : arg3.IsWhole)
    (x0 : Vec F S8000x32 .f32) (x1 : Vec F S32x6 .f32) (x2 : Vec F S1x6 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__linear_kernel i arg0 harg0 arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The layer's proof data on core c: the arrays as entered; after the body each input's buffer at its block and the
    result's at the affine image of the three blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))
/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for this layer, at every point. -/
theorem body_obligation1 (c : Dev nD) : BodyObligation (dat1 (F := F) V c) (defs₀ (F := F)) Variants.none () Set.univ := fun t => by
  rw [bigSep_W1, bigSep_W1]
  exact sound_body1 V c t

/-! # The node layer of the second convolution: rows of the hidden activations (2000 at a time) times the 5×4 matrix
    [Wk|Wq|Wv|Ws], plus the 1×4 bias row, written to the matching 2000 rows of the 100000×4 result -/

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of rows of the hidden activations is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight matrix, fetched once, is in its staging buffer at every point: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias row likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body reads and writes each buffer through its whole rectangle. -/
abbrev r2_0 : Rect S2000x5 := Rect.unit (s := S2000x5) ![0, 0] S2000x5.size inb_S2000x5_S2000x5_0_0
abbrev r2_1 : Rect S5x4 := Rect.unit (s := S5x4) ![0, 0] S5x4.size inb_S5x4_S5x4_0_0
abbrev r2_2 : Rect S1x4 := Rect.unit (s := S1x4) ![0, 0] S1x4.size inb_S1x4_S1x4_0_0
abbrev r2_3 : Rect S2000x4 := Rect.unit (s := S2000x4) ![0, 0] S2000x4.size inb_S2000x4_S2000x4_0_0

/-- What the body leaves in the result's staging buffer: its one store, of the affine image of the three blocks. -/
def out2_3 (x0 : Vec F S2000x5 .f32) (x1 : Vec F S5x4 .f32) (x2 : Vec F S1x4 .f32) : Vec F S2000x4 .f32 :=
  View.canon [⟨r2_3, k2_pay1 (View.ld x0 r2_0) (View.ld x1 r2_1) (View.ld x2 r2_2)⟩]

/-- That one store covers the buffer. -/
theorem cover2_3 (p0 : Vec F S2000x4 .f32) (y : S2000x4.Idx) :
    ∃ pc ∈ ([⟨r2_3, p0⟩] : List (View.Piece (Elt F) S2000x4 .f32)), y ∈ pc.1.set :=
  View.cover_of_tiled [⟨r2_3, p0⟩] S2000x4.size (by rfl) y

set_option maxHeartbeats 1000000 in
/-- The body's triple: from the three inputs' buffers at x0, x1, x2 and the result's at anything, it ends with the inputs'
    as they were and the result's at `out2_3 x0 x1 x2`. -/
theorem sound_kernel2 (c : Dev nD) (E : Set ℕ) (i : grid2.Coords) (arg0 : Memref sig .tc .vmem S2000x5 .f32) (harg0 : arg0.IsWhole)
    (arg1 : Memref sig .tc .vmem S5x4 .f32) (harg1 : arg1.IsWhole) (arg2 : Memref sig .tc .vmem S1x4 .f32) (harg2 : arg2.IsWhole)
    (arg3 : Memref sig .tc .vmem S2000x4 .f32) (harg3 : arg3.IsWhole)
    (x0 : Vec F S2000x5 .f32) (x1 : Vec F S5x4 .f32) (x2 : Vec F S1x4 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__linear_kernel i arg0 harg0 arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The layer's proof data on core c: the arrays as entered; after the body each input's buffer at its block and the
    result's at the affine image of the three blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))
/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for this layer, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Layer

end
-- ==== Proof.LayerRunI.lean ====
/-
  The whole program as a walk through nine stretches — host operations, the first node layer, host operations, the
  edge layer, three stretches of host operations, the second node layer, host operations — with every buffer's contents
  named at each boundary: a host stretch applies its operations to the contents before it; a layer's region leaves its
  result array at what its row blocks wrote back and every other buffer as it found it. Every weakly fair execution
  terminates, faults nowhere, and ends with each buffer at the last boundary's contents; the argument arrays are written
  by no stretch (every written buffer comes after the 27 arguments in the buffer table) and by no layer (a layer's only
  argument array is read through an input window), so they end as launched.
-/
import proofs.«150417_j61237643706857_2_alg».proof.Proof.LayerBodyI

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the index rows, the concatenated weights and biases): the first node layer's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first node layer: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the one reshape of the edge bias: the edge layer's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the edge layer. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the first convolution's gather, gate and segment sum and the graph normalisation, -/
abbrev W5 : Dev nD → Valuation τ sig (Elt F) := fun c => StableHlo.after hostOps2 (W4 m ρ c)
/-- the rectifier, -/
abbrev W6 : Dev nD → Valuation τ sig (Elt F) := fun c => StableHlo.after hostOps2_1 (W5 m ρ c)
/-- and the second layer's concatenated weights and biases: the second node layer's entry. -/
abbrev W7 : Dev nD → Valuation τ sig (Elt F) := fun c => StableHlo.after hostOps2_2 (W6 m ρ c)
abbrev V7 : (c : Dev nD) → (b : Ref sig .tc) → Buf (Elt F) ((c : Thread nD τ).loc b) := fun c b => W7 m ρ c b
/-- After the second node layer. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After the second convolution's gather, gate and segment sum and the closing logistic: the return. -/
abbrev W9 : Dev nD → Valuation τ sig (Elt F) := fun c => StableHlo.after hostOps3 (W8 m ρ c)

/-! ## The proof data family and the thread state -/

/-- No layer has a prefetched table. -/
abbrev adm : (p : Fin 3) → (pcfgs (F := F) p).Adm := fun p => (cfgs p).toPCfg_adm
/-- Every layer's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
set_option maxHeartbeats 4000000 in
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
set_option maxHeartbeats 4000000 in
theorem hostOps3_fresh : (hostOps3 : List (HloOp τ sig (Elt F))).Forall fun op => op.fresh = ∅ := by
  simp only [List.Forall]; repeat' constructor
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the return's contents, the register at some state. -/
abbrev Tₙ (c : Dev nD) : sProp 𝕄 := iprop(StableHlo.held (c : Thread nD τ) (Pipeline.ucRefs τ sig) (W9 m ρ c) ∗ ∃ r, prngReg c r)

/-! ## The layers' regions as segments -/

set_option backward.isDefEq.respectTransparency.types false in
/-- The first node layer's region: entered from the contents W1, left at W2; its arrays split out of the unscoped
    buffers and put back; the generator register into the invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The edge layer's region: entered from the contents W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second node layer's region: entered from the contents W7, left at W8. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's nine segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ),
    .host (hseg hostOps3 hostOps3_sub hostOps3_fresh (W8 m ρ)) ]

set_option maxHeartbeats 4000000 in
/-- The program is the run of its segments. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      StableHlo.seq hostOps2_1,
      StableHlo.seq hostOps2_2,
      Prog.lift (.customCall (Pipeline.entry 2) ()),
      StableHlo.seq hostOps3 ] from rfl]
  rfl

set_option backward.isDefEq.respectTransparency.types false in
set_option maxHeartbeats 4000000 in
/-- From any memory with zero counters every weakly fair execution of the program terminates, nothing faulting, and
    every final state holds each unscoped buffer at the return's contents W9. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-! ## The arguments end as launched -/

/-- A buffer that comes after the 27 arguments in the buffer table. -/
def PastArgs (b : DevRef τ sig) : Prop := ∃ r : Ref sig .tc, b = Proc.devRef .tc r ∧ 27 ≤ r.idx.val

/-- A stretch of host operations that writes only past the arguments leaves every argument as it was. -/
theorem keep_of_past {ops : List (HloOp τ sig (Elt F))} (h : ops.Forall fun op => ∀ b ∈ op.writes, PastArgs b)
    (V : Valuation τ sig (Elt F)) (a : Ref sig .tc) (ha : a.idx.val < 27) :
    StableHlo.after ops V (Proc.devRef .tc a) = V (Proc.devRef .tc a) :=
  StableHlo.after_of_forall_not_mem ops V fun op hop hb => by
    obtain ⟨r, e, hr⟩ := (List.forall_iff_forall_mem.mp h) op hop _ hb
    have : a = r := Proc.devRef_injective _ e
    subst this; omega

/-- Every host operation of the program writes past the arguments (each operation's result buffer, one by one). -/
theorem past0 : (hostOps0 : List (HloOp τ sig (Elt F))).Forall fun op => ∀ b ∈ op.writes, PastArgs b := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton, forall_eq]
  repeat' apply And.intro
  all_goals exact ⟨_, rfl, by decide⟩
theorem past1 : (hostOps1 : List (HloOp τ sig (Elt F))).Forall fun op => ∀ b ∈ op.writes, PastArgs b := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton, forall_eq]
  exact ⟨_, rfl, by decide⟩
set_option maxHeartbeats 4000000 in
theorem past2 : (hostOps2 : List (HloOp τ sig (Elt F))).Forall fun op => ∀ b ∈ op.writes, PastArgs b := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton, forall_eq]
  repeat' apply And.intro
  all_goals exact ⟨_, rfl, by decide⟩
theorem past2_1 : (hostOps2_1 : List (HloOp τ sig (Elt F))).Forall fun op => ∀ b ∈ op.writes, PastArgs b := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton, forall_eq]
  repeat' apply And.intro
  all_goals exact ⟨_, rfl, by decide⟩
theorem past2_2 : (hostOps2_2 : List (HloOp τ sig (Elt F))).Forall fun op => ∀ b ∈ op.writes, PastArgs b := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton, forall_eq]
  repeat' apply And.intro
  all_goals exact ⟨_, rfl, by decide⟩
set_option maxHeartbeats 4000000 in
theorem past3 : (hostOps3 : List (HloOp τ sig (Elt F))).Forall fun op => ∀ b ∈ op.writes, PastArgs b := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton, forall_eq]
  repeat' apply And.intro
  all_goals exact ⟨_, rfl, by decide⟩

/-- The first node layer leaves every argument as it found it: the only argument among its arrays is x, which its first
    window only reads. -/
theorem W2_arg (c : Dev nD) (a : Ref sig .tc) (ha : a.idx.val < 27) :
    W2 m ρ c (Proc.devRef .tc a) = W1 m ρ c (Proc.devRef .tc a) := by
  by_cases h : ∃ w, Pipeline.arrRef spec0 w = a
  · obtain ⟨w, rfl⟩ := h
    have hw : ∀ w : Fin 4, (Pipeline.arrRef spec0 w).idx.val < 27 → w = 0 := by decide
    obtain rfl := hw w ha
    exact (W2_arr m ρ c 0).trans (((dat0 (V1 m ρ) c).arrAt_in 0 rfl _).trans (A_eq0 (V1 m ρ) c 0))
  · exact W2_of_ne m ρ c a fun w e => h ⟨w, e⟩
/-- The edge layer likewise: edge_attr is read through its first window. -/
theorem W4_arg (c : Dev nD) (a : Ref sig .tc) (ha : a.idx.val < 27) :
    W4 m ρ c (Proc.devRef .tc a) = W3 m ρ c (Proc.devRef .tc a) := by
  by_cases h : ∃ w, Pipeline.arrRef spec1 w = a
  · obtain ⟨w, rfl⟩ := h
    have hw : ∀ w : Fin 4, (Pipeline.arrRef spec1 w).idx.val < 27 → w = 0 := by decide
    obtain rfl := hw w ha
    exact (W4_arr m ρ c 0).trans (((dat1 (V3 m ρ) c).arrAt_in 0 rfl _).trans (A_eq1 (V3 m ρ) c 0))
  · exact W4_of_ne m ρ c a fun w e => h ⟨w, e⟩
/-- None of the second node layer's arrays is an argument. -/
theorem W8_arg (c : Dev nD) (a : Ref sig .tc) (ha : a.idx.val < 27) :
    W8 m ρ c (Proc.devRef .tc a) = W7 m ρ c (Proc.devRef .tc a) :=
  W8_of_ne m ρ c a fun w e => by
    have hw : ∀ w : Fin 4, ¬ (Pipeline.arrRef spec2 w).idx.val < 27 := by decide
    subst e; exact hw w ha

/-- Every argument reaches the return as launched. -/
theorem W9_arg (c : Dev nD) (a : Ref sig .tc) (ha : a.idx.val < 27) :
    W9 m ρ c (Proc.devRef .tc a) = m ((c : Thread nD τ).loc a) :=
  calc W9 m ρ c (Proc.devRef .tc a)
    _ = W8 m ρ c (Proc.devRef .tc a) := keep_of_past past3 _ a ha
    _ = W7 m ρ c (Proc.devRef .tc a) := W8_arg m ρ c a ha
    _ = W6 m ρ c (Proc.devRef .tc a) := keep_of_past past2_2 _ a ha
    _ = W5 m ρ c (Proc.devRef .tc a) := keep_of_past past2_1 _ a ha
    _ = W4 m ρ c (Proc.devRef .tc a) := keep_of_past past2 _ a ha
    _ = W3 m ρ c (Proc.devRef .tc a) := W4_arg m ρ c a ha
    _ = W2 m ρ c (Proc.devRef .tc a) := keep_of_past past1 _ a ha
    _ = W1 m ρ c (Proc.devRef .tc a) := W2_arg m ρ c a ha
    _ = W0 m ρ c (Proc.devRef .tc a) := keep_of_past past0 _ a ha
    _ = m ((c : Thread nD τ).loc a) := rfl

/-- What a final state of the run holds at an argument, and at any unscoped buffer. -/
theorem final_arg {r : PUnit × MemSt nD τ sig (Elt F)} (h : ∀ c : Dev nD, ∀ b ∈ Pipeline.ucRefs τ sig, r.2.mem (((c : Thread nD τ)).1, b) = W9 m ρ c b)
    (c : Dev nD) (a : Ref sig .tc) (ha : a.idx.val < 27) (hs : ¬ (Proc.devRef .tc a : DevRef τ sig).isScoped) :
    r.2.mem ((c.tc : Thread nD τ).loc a) = m ((c.tc : Thread nD τ).loc a) :=
  (h c _ (mem_uc a hs)).trans (W9_arg m ρ c a ha)

end Cert.KernelIdeal.Layer

end
-- ==== Proof.LayerBodyB.lean ====
/-
  The three dense layers of the two gated graph convolutions, each one grid of row blocks: a block of rows of the
  left matrix, the whole right matrix and the bias row go in, the block's affine image comes out. Per layer: what
  each window's staging buffer holds at a grid point, what the body leaves in the result's buffer (its one whole
  store of the product plus the broadcast bias), the body's triple, and the data the launch theorem asks for — stated
  at the contents the region is entered from, for any float interpretation.
-/
import proofs.«150417_j61237643706857_2_alg».proof.Proof.Gen.Kernel.Launch
import proofs.«150417_j61237643706857_2_alg».proof.Proof.Gen.Kernel.Skeleton
import proofs.«150417_j61237643706857_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on each core when the layer's region is entered: a parameter here, fixed by the run
variable (V : (c : Dev nD) → (b : Ref sig .tc) → Buf (Elt F) ((c : Thread nD τ).loc b))

/-! # The node layer of the first convolution: rows of x (5000 at a time) times the 256×20 matrix [Wk|Wq|Wv|Ws],
    plus the 1×20 bias row, written to the matching 5000 rows of the 100000×20 result -/

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of rows of x is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight matrix, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias row likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body reads and writes each buffer through its whole rectangle. -/
abbrev r0_0 : Rect S5000x256 := Rect.unit (s := S5000x256) ![0, 0] S5000x256.size inb_S5000x256_S5000x256_0_0
abbrev r0_1 : Rect S256x20 := Rect.unit (s := S256x20) ![0, 0] S256x20.size inb_S256x20_S256x20_0_0
abbrev r0_2 : Rect S1x20 := Rect.unit (s := S1x20) ![0, 0] S1x20.size inb_S1x20_S1x20_0_0
abbrev r0_3 : Rect S5000x20 := Rect.unit (s := S5000x20) ![0, 0] S5000x20.size inb_S5000x20_S5000x20_0_0

/-- What the body leaves in the result's staging buffer: its one store, of the affine image of the three blocks. -/
def out0_3 (x0 : Vec F S5000x256 .f32) (x1 : Vec F S256x20 .f32) (x2 : Vec F S1x20 .f32) : Vec F S5000x20 .f32 :=
  View.canon [⟨r0_3, k0_pay1 (View.ld x0 r0_0) (View.ld x1 r0_1) (View.ld x2 r0_2)⟩]

/-- That one store covers the buffer. -/
theorem cover0_3 (p0 : Vec F S5000x20 .f32) (y : S5000x20.Idx) :
    ∃ pc ∈ ([⟨r0_3, p0⟩] : List (View.Piece (Elt F) S5000x20 .f32)), y ∈ pc.1.set :=
  View.cover_of_tiled [⟨r0_3, p0⟩] S5000x20.size (by rfl) y

set_option maxHeartbeats 1000000 in
/-- The body's triple: from the three inputs' buffers at x0, x1, x2 and the result's at anything, it ends with the inputs'
    as they were and the result's at `out0_3 x0 x1 x2`. -/
theorem sound_kernel0 (c : Dev nD) (E : Set ℕ) (i : grid0.Coords) (arg0 : Memref sig .tc .vmem S5000x256 .f32) (harg0 : arg0.IsWhole)
    (arg1 : Memref sig .tc .vmem S256x20 .f32) (harg1 : arg1.IsWhole) (arg2 : Memref sig .tc .vmem S1x20 .f32) (harg2 : arg2.IsWhole)
    (arg3 : Memref sig .tc .vmem S5000x20 .f32) (harg3 : arg3.IsWhole)
    (x0 : Vec F S5000x256 .f32) (x1 : Vec F S256x20 .f32) (x2 : Vec F S1x20 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The layer's proof data on core c: the arrays as entered; after the body each input's buffer at its block and the
    result's at the affine image of the three blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))
/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for this layer, at every point. -/
theorem body_obligation0 (c : Dev nD) : BodyObligation (dat0 (F := F) V c) (defs₀ (F := F)) Variants.none () Set.univ := fun t => by
  rw [bigSep_W0, bigSep_W0]
  exact sound_body0 V c t

/-! # The edge layer, shared by both convolutions: rows of edge_attr (8000 at a time) times the 32×6 matrix [We1|We2],
    plus the 1×6 bias row, written to the matching 8000 rows of the 1600000×6 result -/

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of rows of edge_attr is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight matrix, fetched once, is in its staging buffer at every point: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias row likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body reads and writes each buffer through its whole rectangle. -/
abbrev r1_0 : Rect S8000x32 := Rect.unit (s := S8000x32) ![0, 0] S8000x32.size inb_S8000x32_S8000x32_0_0
abbrev r1_1 : Rect S32x6 := Rect.unit (s := S32x6) ![0, 0] S32x6.size inb_S32x6_S32x6_0_0
abbrev r1_2 : Rect S1x6 := Rect.unit (s := S1x6) ![0, 0] S1x6.size inb_S1x6_S1x6_0_0
abbrev r1_3 : Rect S8000x6 := Rect.unit (s := S8000x6) ![0, 0] S8000x6.size inb_S8000x6_S8000x6_0_0

/-- What the body leaves in the result's staging buffer: its one store, of the affine image of the three blocks. -/
def out1_3 (x0 : Vec F S8000x32 .f32) (x1 : Vec F S32x6 .f32) (x2 : Vec F S1x6 .f32) : Vec F S8000x6 .f32 :=
  View.canon [⟨r1_3, k1_pay1 (View.ld x0 r1_0) (View.ld x1 r1_1) (View.ld x2 r1_2)⟩]

/-- That one store covers the buffer. -/
theorem cover1_3 (p0 : Vec F S8000x6 .f32) (y : S8000x6.Idx) :
    ∃ pc ∈ ([⟨r1_3, p0⟩] : List (View.Piece (Elt F) S8000x6 .f32)), y ∈ pc.1.set :=
  View.cover_of_tiled [⟨r1_3, p0⟩] S8000x6.size (by rfl) y

set_option maxHeartbeats 1000000 in
/-- The body's triple: from the three inputs' buffers at x0, x1, x2 and the result's at anything, it ends with the inputs'
    as they were and the result's at `out1_3 x0 x1 x2`. -/
theorem sound_kernel1 (c : Dev nD) (E : Set ℕ) (i : grid1.Coords) (arg0 : Memref sig .tc .vmem S8000x32 .f32) (harg0 : arg0.IsWhole)
    (arg1 : Memref sig .tc .vmem S32x6 .f32) (harg1 : arg1.IsWhole) (arg2 : Memref sig .tc .vmem S1x6 .f32) (harg2 : arg2.IsWhole)
    (arg3 : Memref sig .tc .vmem S8000x6 .f32) (harg3 : arg3.IsWhole)
    (x0 : Vec F S8000x32 .f32) (x1 : Vec F S32x6 .f32) (x2 : Vec F S1x6 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__linear_kernel i arg0 harg0 arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The layer's proof data on core c: the arrays as entered; after the body each input's buffer at its block and the
    result's at the affine image of the three blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))
/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for this layer, at every point. -/
theorem body_obligation1 (c : Dev nD) : BodyObligation (dat1 (F := F) V c) (defs₀ (F := F)) Variants.none () Set.univ := fun t => by
  rw [bigSep_W1, bigSep_W1]
  exact sound_body1 V c t

/-! # The node layer of the second convolution: rows of the hidden activations (2000 at a time) times the 5×4 matrix
    [Wk|Wq|Wv|Ws], plus the 1×4 bias row, written to the matching 2000 rows of the 100000×4 result -/

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of rows of the hidden activations is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight matrix, fetched once, is in its staging buffer at every point: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias row likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body reads and writes each buffer through its whole rectangle. -/
abbrev r2_0 : Rect S2000x5 := Rect.unit (s := S2000x5) ![0, 0] S2000x5.size inb_S2000x5_S2000x5_0_0
abbrev r2_1 : Rect S5x4 := Rect.unit (s := S5x4) ![0, 0] S5x4.size inb_S5x4_S5x4_0_0
abbrev r2_2 : Rect S1x4 := Rect.unit (s := S1x4) ![0, 0] S1x4.size inb_S1x4_S1x4_0_0
abbrev r2_3 : Rect S2000x4 := Rect.unit (s := S2000x4) ![0, 0] S2000x4.size inb_S2000x4_S2000x4_0_0

/-- What the body leaves in the result's staging buffer: its one store, of the affine image of the three blocks. -/
def out2_3 (x0 : Vec F S2000x5 .f32) (x1 : Vec F S5x4 .f32) (x2 : Vec F S1x4 .f32) : Vec F S2000x4 .f32 :=
  View.canon [⟨r2_3, k2_pay1 (View.ld x0 r2_0) (View.ld x1 r2_1) (View.ld x2 r2_2)⟩]

/-- That one store covers the buffer. -/
theorem cover2_3 (p0 : Vec F S2000x4 .f32) (y : S2000x4.Idx) :
    ∃ pc ∈ ([⟨r2_3, p0⟩] : List (View.Piece (Elt F) S2000x4 .f32)), y ∈ pc.1.set :=
  View.cover_of_tiled [⟨r2_3, p0⟩] S2000x4.size (by rfl) y

set_option maxHeartbeats 1000000 in
/-- The body's triple: from the three inputs' buffers at x0, x1, x2 and the result's at anything, it ends with the inputs'
    as they were and the result's at `out2_3 x0 x1 x2`. -/
theorem sound_kernel2 (c : Dev nD) (E : Set ℕ) (i : grid2.Coords) (arg0 : Memref sig .tc .vmem S2000x5 .f32) (harg0 : arg0.IsWhole)
    (arg1 : Memref sig .tc .vmem S5x4 .f32) (harg1 : arg1.IsWhole) (arg2 : Memref sig .tc .vmem S1x4 .f32) (harg2 : arg2.IsWhole)
    (arg3 : Memref sig .tc .vmem S2000x4 .f32) (harg3 : arg3.IsWhole)
    (x0 : Vec F S2000x5 .f32) (x1 : Vec F S5x4 .f32) (x2 : Vec F S1x4 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__linear_kernel i arg0 harg0 arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The layer's proof data on core c: the arrays as entered; after the body each input's buffer at its block and the
    result's at the affine image of the three blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))
/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for this layer, at every point. -/
theorem body_obligation2 (c : Dev nD) : BodyObligation (dat2 (F := F) V c) (defs₀ (F := F)) Variants.none () Set.univ := fun t => by
  rw [bigSep_W2, bigSep_W2]
  exact sound_body2 V c t

end Cert.Kernel.Layer

end
-- ==== Proof.LayerRunB.lean ====
/-
  The whole program as a walk through nine stretches — host operations, the first node layer, host operations, the
  edge layer, three stretches of host operations, the second node layer, host operations — with every buffer's contents
  named at each boundary: a host stretch applies its operations to the contents before it; a layer's region leaves its
  result array at what its row blocks wrote back and every other buffer as it found it. Every weakly fair execution
  terminates, faults nowhere, and ends with each buffer at the last boundary's contents; the argument arrays are written
  by no stretch (every written buffer comes after the 27 arguments in the buffer table) and by no layer (a layer's only
  argument array is read through an input window), so they end as launched.
-/
import proofs.«150417_j61237643706857_2_alg».proof.Proof.LayerBodyB

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the index rows, the concatenated weights and biases): the first node layer's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first node layer: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the one reshape of the edge bias: the edge layer's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the edge layer. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the first convolution's gather, gate and segment sum and the graph normalisation, -/
abbrev W5 : Dev nD → Valuation τ sig (Elt F) := fun c => StableHlo.after hostOps2 (W4 m ρ c)
/-- the rectifier, -/
abbrev W6 : Dev nD → Valuation τ sig (Elt F) := fun c => StableHlo.after hostOps2_1 (W5 m ρ c)
/-- and the second layer's concatenated weights and biases: the second node layer's entry. -/
abbrev W7 : Dev nD → Valuation τ sig (Elt F) := fun c => StableHlo.after hostOps2_2 (W6 m ρ c)
abbrev V7 : (c : Dev nD) → (b : Ref sig .tc) → Buf (Elt F) ((c : Thread nD τ).loc b) := fun c b => W7 m ρ c b
/-- After the second node layer. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After the second convolution's gather, gate and segment sum and the closing logistic: the return. -/
abbrev W9 : Dev nD → Valuation τ sig (Elt F) := fun c => StableHlo.after hostOps3 (W8 m ρ c)

/-! ## The proof data family and the thread state -/

/-- No layer has a prefetched table. -/
abbrev adm : (p : Fin 3) → (pcfgs (F := F) p).Adm := fun p => (cfgs p).toPCfg_adm
/-- Every layer's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
set_option maxHeartbeats 4000000 in
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
set_option maxHeartbeats 4000000 in
theorem hostOps3_fresh : (hostOps3 : List (HloOp τ sig (Elt F))).Forall fun op => op.fresh = ∅ := by
  simp only [List.Forall]; repeat' constructor
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the return's contents, the register at some state. -/
abbrev Tₙ (c : Dev nD) : sProp 𝕄 := iprop(StableHlo.held (c : Thread nD τ) (Pipeline.ucRefs τ sig) (W9 m ρ c) ∗ ∃ r, prngReg c r)

/-! ## The layers' regions as segments -/

set_option backward.isDefEq.respectTransparency.types false in
/-- The first node layer's region: entered from the contents W1, left at W2; its arrays split out of the unscoped
    buffers and put back; the generator register into the invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The edge layer's region: entered from the contents W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second node layer's region: entered from the contents W7, left at W8. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's nine segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ),
    .host (hseg hostOps3 hostOps3_sub hostOps3_fresh (W8 m ρ)) ]

set_option maxHeartbeats 4000000 in
/-- The program is the run of its segments. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      StableHlo.seq hostOps2_1,
      StableHlo.seq hostOps2_2,
      Prog.lift (.customCall (Pipeline.entry 2) ()),
      StableHlo.seq hostOps3 ] from rfl]
  rfl

set_option backward.isDefEq.respectTransparency.types false in
set_option maxHeartbeats 4000000 in
/-- From any memory with zero counters every weakly fair execution of the program terminates, nothing faulting, and
    every final state holds each unscoped buffer at the return's contents W9. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-! ## The arguments end as launched -/

/-- A buffer that comes after the 27 arguments in the buffer table. -/
def PastArgs (b : DevRef τ sig) : Prop := ∃ r : Ref sig .tc, b = Proc.devRef .tc r ∧ 27 ≤ r.idx.val

/-- A stretch of host operations that writes only past the arguments leaves every argument as it was. -/
theorem keep_of_past {ops : List (HloOp τ sig (Elt F))} (h : ops.Forall fun op => ∀ b ∈ op.writes, PastArgs b)
    (V : Valuation τ sig (Elt F)) (a : Ref sig .tc) (ha : a.idx.val < 27) :
    StableHlo.after ops V (Proc.devRef .tc a) = V (Proc.devRef .tc a) :=
  StableHlo.after_of_forall_not_mem ops V fun op hop hb => by
    obtain ⟨r, e, hr⟩ := (List.forall_iff_forall_mem.mp h) op hop _ hb
    have : a = r := Proc.devRef_injective _ e
    subst this; omega

/-- Every host operation of the program writes past the arguments (each operation's result buffer, one by one). -/
theorem past0 : (hostOps0 : List (HloOp τ sig (Elt F))).Forall fun op => ∀ b ∈ op.writes, PastArgs b := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton, forall_eq]
  repeat' apply And.intro
  all_goals exact ⟨_, rfl, by decide⟩
theorem past1 : (hostOps1 : List (HloOp τ sig (Elt F))).Forall fun op => ∀ b ∈ op.writes, PastArgs b := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton, forall_eq]
  exact ⟨_, rfl, by decide⟩
set_option maxHeartbeats 4000000 in
theorem past2 : (hostOps2 : List (HloOp τ sig (Elt F))).Forall fun op => ∀ b ∈ op.writes, PastArgs b := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton, forall_eq]
  repeat' apply And.intro
  all_goals exact ⟨_, rfl, by decide⟩
theorem past2_1 : (hostOps2_1 : List (HloOp τ sig (Elt F))).Forall fun op => ∀ b ∈ op.writes, PastArgs b := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton, forall_eq]
  repeat' apply And.intro
  all_goals exact ⟨_, rfl, by decide⟩
theorem past2_2 : (hostOps2_2 : List (HloOp τ sig (Elt F))).Forall fun op => ∀ b ∈ op.writes, PastArgs b := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton, forall_eq]
  repeat' apply And.intro
  all_goals exact ⟨_, rfl, by decide⟩
set_option maxHeartbeats 4000000 in
theorem past3 : (hostOps3 : List (HloOp τ sig (Elt F))).Forall fun op => ∀ b ∈ op.writes, PastArgs b := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton, forall_eq]
  repeat' apply And.intro
  all_goals exact ⟨_, rfl, by decide⟩

/-- The first node layer leaves every argument as it found it: the only argument among its arrays is x, which its first
    window only reads. -/
theorem W2_arg (c : Dev nD) (a : Ref sig .tc) (ha : a.idx.val < 27) :
    W2 m ρ c (Proc.devRef .tc a) = W1 m ρ c (Proc.devRef .tc a) := by
  by_cases h : ∃ w, Pipeline.arrRef spec0 w = a
  · obtain ⟨w, rfl⟩ := h
    have hw : ∀ w : Fin 4, (Pipeline.arrRef spec0 w).idx.val < 27 → w = 0 := by decide
    obtain rfl := hw w ha
    exact (W2_arr m ρ c 0).trans (((dat0 (V1 m ρ) c).arrAt_in 0 rfl _).trans (A_eq0 (V1 m ρ) c 0))
  · exact W2_of_ne m ρ c a fun w e => h ⟨w, e⟩
/-- The edge layer likewise: edge_attr is read through its first window. -/
theorem W4_arg (c : Dev nD) (a : Ref sig .tc) (ha : a.idx.val < 27) :
    W4 m ρ c (Proc.devRef .tc a) = W3 m ρ c (Proc.devRef .tc a) := by
  by_cases h : ∃ w, Pipeline.arrRef spec1 w = a
  · obtain ⟨w, rfl⟩ := h
    have hw : ∀ w : Fin 4, (Pipeline.arrRef spec1 w).idx.val < 27 → w = 0 := by decide
    obtain rfl := hw w ha
    exact (W4_arr m ρ c 0).trans (((dat1 (V3 m ρ) c).arrAt_in 0 rfl _).trans (A_eq1 (V3 m ρ) c 0))
  · exact W4_of_ne m ρ c a fun w e => h ⟨w, e⟩
/-- None of the second node layer's arrays is an argument. -/
theorem W8_arg (c : Dev nD) (a : Ref sig .tc) (ha : a.idx.val < 27) :
    W8 m ρ c (Proc.devRef .tc a) = W7 m ρ c (Proc.devRef .tc a) :=
  W8_of_ne m ρ c a fun w e => by
    have hw : ∀ w : Fin 4, ¬ (Pipeline.arrRef spec2 w).idx.val < 27 := by decide
    subst e; exact hw w ha

/-- Every argument reaches the return as launched. -/
theorem W9_arg (c : Dev nD) (a : Ref sig .tc) (ha : a.idx.val < 27) :
    W9 m ρ c (Proc.devRef .tc a) = m ((c : Thread nD τ).loc a) :=
  calc W9 m ρ c (Proc.devRef .tc a)
    _ = W8 m ρ c (Proc.devRef .tc a) := keep_of_past past3 _ a ha
    _ = W7 m ρ c (Proc.devRef .tc a) := W8_arg m ρ c a ha
    _ = W6 m ρ c (Proc.devRef .tc a) := keep_of_past past2_2 _ a ha
    _ = W5 m ρ c (Proc.devRef .tc a) := keep_of_past past2_1 _ a ha
    _ = W4 m ρ c (Proc.devRef .tc a) := keep_of_past past2 _ a ha
    _ = W3 m ρ c (Proc.devRef .tc a) := W4_arg m ρ c a ha
    _ = W2 m ρ c (Proc.devRef .tc a) := keep_of_past past1 _ a ha
    _ = W1 m ρ c (Proc.devRef .tc a) := W2_arg m ρ c a ha
    _ = W0 m ρ c (Proc.devRef .tc a) := keep_of_past past0 _ a ha
    _ = m ((c : Thread nD τ).loc a) := rfl

/-- What a final state of the run holds at an argument, and at any unscoped buffer. -/
theorem final_arg {r : PUnit × MemSt nD τ sig (Elt F)} (h : ∀ c : Dev nD, ∀ b ∈ Pipeline.ucRefs τ sig, r.2.mem (((c : Thread nD τ)).1, b) = W9 m ρ c b)
    (c : Dev nD) (a : Ref sig .tc) (ha : a.idx.val < 27) (hs : ¬ (Proc.devRef .tc a : DevRef τ sig).isScoped) :
    r.2.mem ((c.tc : Thread nD τ).loc a) = m ((c.tc : Thread nD τ).loc a) :=
  (h c _ (mem_uc a hs)).trans (W9_arg m ρ c a ha)

end Cert.Kernel.Layer

end
-- ==== Proof.Frames.lean ====
/-
  The three frame claims. Each kernel program: its run through the nine stretches ends with every buffer at the
  return's contents, and an argument's contents there are its launch contents; so each of the 27 argument arrays ends
  unchanged. The reference: its run with the result dropped.
-/
import proofs.«150417_j61237643706857_2_alg».proof.Defs
import proofs.«150417_j61237643706857_2_alg».proof.Proof.LayerRunI
import proofs.«150417_j61237643706857_2_alg».proof.Proof.LayerRunB
import proofs.«150417_j61237643706857_2_alg».proof.Proof.Gen.ReferenceIdeal
import proofs.«150417_j61237643706857_2_alg».proof.Proof.Gen.Pre_finite_inputs
import proofs.«150417_j61237643706857_2_alg».proof.Proof.Gen.ReferenceIdeal.Run

noncomputable section

namespace Cert.Proof.Frames

open Idealize.ShloMosaic Idealize.ShloMosaic.TcCoe Idealize.SL.Sem

/-- The word-level kernel program runs to the end and leaves its 27 argument arrays unchanged. -/
theorem frame_k : Cert.frame_Kernel := fun m ρ _ =>
  (θ_run (Cert.Kernel.defs (F := Bits)) _ _).mono (fun r h c =>
    have key := fun (a : Ref Cert.Kernel.sig .tc) (ha : a.idx.val < 27)
        (hs : ¬ (Proc.devRef .tc a : DevRef Cert.Kernel.τ Cert.Kernel.sig).isScoped) =>
      Cert.Kernel.Layer.final_arg (F := Bits) m ρ h c a ha hs
    ⟨key Cert.Kernel.main_arg0 (by decide) (by decide),
      key Cert.Kernel.main_arg1 (by decide) (by decide),
      key Cert.Kernel.main_arg2 (by decide) (by decide),
      key Cert.Kernel.main_arg3 (by decide) (by decide),
      key Cert.Kernel.main_arg4 (by decide) (by decide),
      key Cert.Kernel.main_arg5 (by decide) (by decide),
      key Cert.Kernel.main_arg6 (by decide) (by decide),
      key Cert.Kernel.main_arg7 (by decide) (by decide),
      key Cert.Kernel.main_arg8 (by decide) (by decide),
      key Cert.Kernel.main_arg9 (by decide) (by decide),
      key Cert.Kernel.main_arg10 (by decide) (by decide),
      key Cert.Kernel.main_arg11 (by decide) (by decide),
      key Cert.Kernel.main_arg12 (by decide) (by decide),
      key Cert.Kernel.main_arg13 (by decide) (by decide),
      key Cert.Kernel.main_arg14 (by decide) (by decide),
      key Cert.Kernel.main_arg15 (by decide) (by decide),
      key Cert.Kernel.main_arg16 (by decide) (by decide),
      key Cert.Kernel.main_arg17 (by decide) (by decide),
      key Cert.Kernel.main_arg18 (by decide) (by decide),
      key Cert.Kernel.main_arg19 (by decide) (by decide),
      key Cert.Kernel.main_arg20 (by decide) (by decide),
      key Cert.Kernel.main_arg21 (by decide) (by decide),
      key Cert.Kernel.main_arg22 (by decide) (by decide),
      key Cert.Kernel.main_arg23 (by decide) (by decide),
      key Cert.Kernel.main_arg24 (by decide) (by decide),
      key Cert.Kernel.main_arg25 (by decide) (by decide),
      key Cert.Kernel.main_arg26 (by decide) (by decide)⟩)
    (Cert.Kernel.Layer.run_all (F := Bits) m ρ)

/-- The idealized kernel program likewise. -/
theorem frame_ki : Cert.frame_KernelIdeal := fun m ρ _ =>
  (θ_run (Cert.KernelIdeal.defs (F := Ideal)) _ _).mono (fun r h c =>
    have key := fun (a : Ref Cert.KernelIdeal.sig .tc) (ha : a.idx.val < 27)
        (hs : ¬ (Proc.devRef .tc a : DevRef Cert.KernelIdeal.τ Cert.KernelIdeal.sig).isScoped) =>
      Cert.KernelIdeal.Layer.final_arg (F := Ideal) m ρ h c a ha hs
    ⟨key Cert.KernelIdeal.main_arg0 (by decide) (by decide),
      key Cert.KernelIdeal.main_arg1 (by decide) (by decide),
      key Cert.KernelIdeal.main_arg2 (by decide) (by decide),
      key Cert.KernelIdeal.main_arg3 (by decide) (by decide),
      key Cert.KernelIdeal.main_arg4 (by decide) (by decide),
      key Cert.KernelIdeal.main_arg5 (by decide) (by decide),
      key Cert.KernelIdeal.main_arg6 (by decide) (by decide),
      key Cert.KernelIdeal.main_arg7 (by decide) (by decide),
      key Cert.KernelIdeal.main_arg8 (by decide) (by decide),
      key Cert.KernelIdeal.main_arg9 (by decide) (by decide),
      key Cert.KernelIdeal.main_arg10 (by decide) (by decide),
      key Cert.KernelIdeal.main_arg11 (by decide) (by decide),
      key Cert.KernelIdeal.main_arg12 (by decide) (by decide),
      key Cert.KernelIdeal.main_arg13 (by decide) (by decide),
      key Cert.KernelIdeal.main_arg14 (by decide) (by decide),
      key Cert.KernelIdeal.main_arg15 (by decide) (by decide),
      key Cert.KernelIdeal.main_arg16 (by decide) (by decide),
      key Cert.KernelIdeal.main_arg17 (by decide) (by decide),
      key Cert.KernelIdeal.main_arg18 (by decide) (by decide),
      key Cert.KernelIdeal.main_arg19 (by decide) (by decide),
      key Cert.KernelIdeal.main_arg20 (by decide) (by decide),
      key Cert.KernelIdeal.main_arg21 (by decide) (by decide),
      key Cert.KernelIdeal.main_arg22 (by decide) (by decide),
      key Cert.KernelIdeal.main_arg23 (by decide) (by decide),
      key Cert.KernelIdeal.main_arg24 (by decide) (by decide),
      key Cert.KernelIdeal.main_arg25 (by decide) (by decide),
      key Cert.KernelIdeal.main_arg26 (by decide) (by decide)⟩)
    (Cert.KernelIdeal.Layer.run_all (F := Ideal) m ρ)

/-- The reference runs to the end and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibAffineCols.lean ====
/-
  Columns of an affine layer. A layer whose weight matrix is several matrices set side by side, and whose bias row is
  the matching biases set end to end, computes all the pieces' layers at once: the slice of its result on one piece's
  columns is that piece's layer. The statements here are the entry-by-entry facts behind that: a column of the layer
  sees only that column of the weights and that entry of the bias; slices, concatenations and the vector-to-row cast
  read at an entry.
-/
import proofs.«150417_j61237643706857_2_alg».proof.Proof.LibDense

noncomputable section

open scoped BigOperators

namespace Cert.Dense

open Idealize.ShloMosaic Idealize.ShloMosaic.ValueIdx

variable {M K N N' : ℕ}

/-- A column of an affine layer depends on that column of the weight matrix and that entry of the bias only: if column
    σ j of W is column j of W' and entry σ j of the bias row is entry j of b', then entry (p, σ j) of the layer with W and
    the bias row is entry (p, j) of the layer with W' and b'. -/
theorem affine2_cols (A : Mat M K) (W : Mat K N) (b : Mat 1 N) (W' : Mat K N') (b' : Row N') (σ : Fin N' → Fin N)
    (hW : ∀ k j, W (ix2 k (σ j)) = W' (ix2 k j)) (hb : ∀ j, b (ix2 (0 : Fin 1) (σ j)) = b' (ix1 j)) (p : Fin M) (j : Fin N') :
    affine2 A W b (ix2 p (σ j)) = affine A W' b' (ix2 p j) := by
  show mm A W (ix2 p (σ j)) + b (ix2 (0 : Fin 1) (σ j)) = mm A W' (ix2 p j) + b' (ix1 j)
  rw [hb]
  refine congrArg (· + b' (ix1 j)) ?_
  unfold mm
  exact Finset.sum_congr rfl fun k _ => by
    show A (ix2 p k) * W (ix2 k (σ j)) = A (ix2 p k) * W' (ix2 k j)
    rw [hW]

/-- A unit-stride slice of columns off … off + N' − 1 of a matrix, read at an entry. -/
theorem slice_cols_apply (X : Mat M N) (off : ℕ) (h : (⟨2, ![M, N]⟩ : Shape).Slices ![0, off] ⟨2, ![M, N']⟩)
    (p : Fin M) (j : Fin N') (hj : off + j.val < N) :
    extractStridedSlice ⟨2, ![M, N']⟩ ![0, off] X h (ix2 p j) = X (ix2 p ⟨off + j.val, hj⟩) :=
  extractStridedSlice_apply ![0, off] X h (ix2 p j) (ix2 p ⟨off + j.val, hj⟩) fun a => by
    match a with
    | ⟨0, _⟩ => show p.val = 0 + p.val; omega
    | ⟨1, _⟩ => rfl

/-- So a slice of columns of an affine layer whose weight matrix and bias row restrict, on those columns, to W' and b'
    is the affine layer with W' and b'. -/
theorem slice_affine2 (A : Mat M K) (W : Mat K N) (b : Mat 1 N) (W' : Mat K N') (b' : Row N') (off : ℕ)
    (hoff : ∀ j : Fin N', off + j.val < N) (h : (⟨2, ![M, N]⟩ : Shape).Slices ![0, off] ⟨2, ![M, N']⟩)
    (hW : ∀ k (j : Fin N'), W (ix2 k ⟨off + j.val, hoff j⟩) = W' (ix2 k j))
    (hb : ∀ j : Fin N', b (ix2 (0 : Fin 1) ⟨off + j.val, hoff j⟩) = b' (ix1 j)) :
    extractStridedSlice ⟨2, ![M, N']⟩ ![0, off] (affine2 A W b) h = affine A W' b' := by
  funext i
  obtain ⟨p, j, rfl⟩ : ∃ (p : Fin M) (j : Fin N'), i = ix2 p j := ⟨i 0, i 1, eq_ix2 i⟩
  rw [slice_cols_apply (affine2 A W b) off h p j (hoff j)]
  exact affine2_cols A W b W' b' (fun j => ⟨off + j.val, hoff j⟩) hW hb p j

/-- A concatenation of matrices along the columns, read at an entry of piece k, whose columns start at column pre. -/
theorem concat_cols_apply {n₁ : ℕ} (xs : List ((s : Shape) × (s.Idx → EReal)))
    (h : Shape.Concatenates (xs.map (·.1)) ⟨2, ![K, N]⟩ (1 : Fin 2))
    (k : ℕ) (hk : k < xs.length) (x₁ : Mat K n₁) (hxk : xs[k] = ⟨⟨2, ![K, n₁]⟩, x₁⟩) (pre : ℕ)
    (hpre : (((xs.take k).map (·.1)).map fun s => if h : s.rank = (⟨2, ![K, N]⟩ : Shape).rank then s.size ((1 : Fin 2).cast h.symm) else 0).sum = pre)
    (r : Fin K) (j : Fin n₁) (hj : pre + j.val < N) :
    concatenate ⟨2, ![K, N]⟩ (1 : Fin 2) xs h (ix2 r ⟨pre + j.val, hj⟩) = x₁ (ix2 r j) :=
  concatenate_apply_piece (1 : Fin 2) xs h (ix2 r ⟨pre + j.val, hj⟩) k hk ⟨2, ![K, n₁]⟩ x₁ hxk rfl pre hpre (ix2 r j)
    (fun b hb => by
      match b with
      | ⟨0, _⟩ => rfl
      | ⟨1, _⟩ => exact absurd rfl hb)
    rfl

/-- A concatenation of vectors, read at an entry of piece k, whose entries start at entry pre. -/
theorem concat_vec_apply {n₁ : ℕ} (xs : List ((s : Shape) × (s.Idx → EReal)))
    (h : Shape.Concatenates (xs.map (·.1)) ⟨1, ![N]⟩ (0 : Fin 1))
    (k : ℕ) (hk : k < xs.length) (x₁ : Row n₁) (hxk : xs[k] = ⟨⟨1, ![n₁]⟩, x₁⟩) (pre : ℕ)
    (hpre : (((xs.take k).map (·.1)).map fun s => if h : s.rank = (⟨1, ![N]⟩ : Shape).rank then s.size ((0 : Fin 1).cast h.symm) else 0).sum = pre)
    (j : Fin n₁) (hj : pre + j.val < N) :
    concatenate ⟨1, ![N]⟩ (0 : Fin 1) xs h (ix1 ⟨pre + j.val, hj⟩) = x₁ (ix1 j) :=
  concatenate_apply_piece (0 : Fin 1) xs h (ix1 ⟨pre + j.val, hj⟩) k hk ⟨1, ![n₁]⟩ x₁ hxk rfl pre hpre (ix1 j)
    (fun b hb => by
      match b with
      | ⟨0, _⟩ => exact absurd rfl hb)
    rfl

/-- A vector cast to a one-row matrix, read at an entry of its one row. -/
theorem row_of_vec_apply (v : Row N) (h : (⟨1, ![N]⟩ : Shape).ShapeCasts ⟨2, ![1, N]⟩) (q : Fin N) :
    shapeCast ⟨2, ![1, N]⟩ v h (ix2 (0 : Fin 1) q) = v (ix1 q) := by
  refine (shapeCast_addUnit_apply ![N] v h (ix2 (0 : Fin 1) q)).trans (congrArg v (funext fun a => ?_))
  match a with
  | ⟨0, _⟩ => rfl

end Cert.Dense

end
-- ==== Proof.LayerValue.lean ====
/-
  What each dense layer's result array holds after its region, at the extended reals: the body's arithmetic on its three
  blocks is the affine layer (product into a zero accumulator plus the broadcast bias row; the changes of float format are
  the identity); a block of rows of the left matrix gives the same rows of the layer on the whole matrix; the row blocks
  cover the result array. So the array ends holding the affine layer of the whole arrays the region was entered with.
-/
import proofs.«150417_j61237643706857_2_alg».proof.Proof.LayerRunI
import proofs.«150417_j61237643706857_2_alg».proof.Proof.LibAffineCols

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

/-! # What each layer's result array holds after its region, at the extended reals -/

section Values

open Cert.Dense Idealize.ShloMosaic.ValueIdx

theorem hz2 : (![0, 0] : Fin 2 → Nat) = fun _ => 0 := funext fun a => by fin_cases a <;> rfl

/-! ## The first node layer -/

/-- The body's arithmetic on its three blocks is the affine layer: the changes of float format are the identity, the
    product goes into a zero accumulator, the bias row is broadcast over the rows. -/
theorem pay0_eq (x0 : Vec Ideal S5000x256 .f32) (x1 : Vec Ideal S256x20 .f32) (x2 : Vec Ideal S1x20 .f32) :
    k0_pay1 (F := Ideal) x0 x1 x2 = affine2 (M := 5000) (K := 256) (N := 20) x0 x1 x2 := by
  unfold k0_pay1
  simp only [shapeCast_self]
  exact addf_matmul_broadcastTo (M := 5000) (K := 256) (N := 20) none x0 x1 x2 _

/-- Where each window's block sits at a grid point: the row blocks of x and of the result move with the point, the
    weight matrix and the bias row are whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The layer on the whole arrays as the region finds them. -/
def G0 (V : (c : Dev nD) → (b : Ref sig .tc) → Buf (Elt Ideal) ((c : Thread nD τ).loc b)) (c : Dev nD) : S100000x20.Idx → EReal :=
  affine2 (M := 100000) (K := 256) (N := 20) (V c main_arg0) (V c main_v4) (V c main_v8)

/-- What point t writes back is block t of the layer on the whole arrays. -/
theorem flushed0_eq (V : (c : Dev nD) → (b : Ref sig .tc) → Buf (Elt Ideal) ((c : Thread nD τ).loc b)) (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0_3
  rw [View.canon_unit_zero hz2]
  simp only [View.ld_unit_zero (S := S5000x256) hz2, View.ld_unit_zero (S := S256x20) hz2, View.ld_unit_zero (S := S1x20) hz2]
  rw [pay0_eq]
  obtain ⟨e00, e01, e10, e11, e20, e21, e30, e31⟩ := idx_facts0 t
  have hN : t.val < 20 := by have h := t.isLt; have e : cfg0.N = 20 := N_0; omega
  have hw : iblk0 (F := Ideal) V c 1 t = V c main_v4 := by
    funext y
    show V c main_v4 (((cfg0.win 1).blk t).view.emb y) = V c main_v4 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 20 + 1 * (y 1).val = (y 1).val; omega
  have hb : iblk0 (F := Ideal) V c 2 t = V c main_v8 := by
    funext y
    show V c main_v8 (((cfg0.win 2).blk t).view.emb y) = V c main_v8 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 20 + 1 * (y 1).val = (y 1).val; omega
  rw [hw, hb]
  funext j
  obtain ⟨p, q, rfl⟩ : ∃ (p : Fin 5000) (q : Fin 20), j = ix2 p q := ⟨j 0, j 1, eq_ix2 j⟩
  let ρ : Fin 5000 → Fin 100000 := fun p => ⟨t.val * 5000 + p.val, by have := p.isLt; omega⟩
  have hemb : ((cfg0.win 3).blk t).view.emb (ix2 p q) = ix2 (ρ p) q := by
    funext a; apply Fin.ext
    match a with
    | ⟨0, _⟩ => show win0_3.index t (0 : Fin 2) * 5000 + 1 * p.val = t.val * 5000 + p.val; omega
    | ⟨1, _⟩ => show win0_3.index t (1 : Fin 2) * 20 + 1 * q.val = q.val; omega
  show affine2 (M := 5000) (K := 256) (N := 20) (iblk0 (F := Ideal) V c 0 t) (V c main_v4) (V c main_v8) (ix2 p q)
    = G0 V c (((cfg0.win 3).blk t).view.emb (ix2 p q))
  rw [hemb]
  refine affine2_rows (M := 5000) (M' := 100000) (K := 256) (N := 20) (V c main_arg0) (iblk0 (F := Ideal) V c 0 t) (V c main_v4) (V c main_v8) ρ (fun p k => ?_) p q
  show V c main_arg0 (((cfg0.win 0).blk t).view.emb (ix2 p k)) = V c main_arg0 (ix2 (ρ p) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 256 + 1 * k.val = k.val; omega

/-- An index of the result array is in point t's block iff each coordinate is in the block's range. -/
theorem mem_blk0 (t : Fin cfg0.N) (i : S100000x20.Idx) :
    i ∈ ((cfg0.win 3).blk t).view.set ↔ ∀ a : Fin 2, win0_3.index t a * S5000x20.size a ≤ (i a).val ∧ (i a).val < win0_3.index t a * S5000x20.size a + S5000x20.size a := by
  show i ∈ ((View.whole main_v9).slice (win0_3.rect t)).set ↔ _
  rw [View.set_slice_whole, Rect.mem_set_unit]
  exact Iff.rfl

/-- The twenty row blocks cover the result array, so it ends holding the layer on the whole arrays. -/
theorem final0 (V : (c : Dev nD) → (b : Ref sig .tc) → Buf (Elt Ideal) ((c : Thread nD τ).loc b)) (c : Dev nD) :
    (dat0 (F := Ideal) V c).arrAt 3 cfg0.N = G0 V c :=
  (dat0 (F := Ideal) V c).arrAt_eq_of_cover 3 (G0 V c) (fun t _ => flushed0_eq V c t) fun i => by
    have h0 : (i 0).val < 100000 := (i 0).isLt
    have h1 : (i 1).val < 20 := (i 1).isLt
    refine ⟨⟨(i 0).val / 5000, by show _ < grid0.N; rw [N_0]; omega⟩, flush0_3 _, ?_⟩
    rw [mem_blk0]
    obtain ⟨e00, e01, e10, e11, e20, e21, e30, e31⟩ := idx_facts0 ⟨(i 0).val / 5000, by show _ < grid0.N; rw [N_0]; omega⟩
    intro a
    match a with
    | ⟨0, _⟩ => show win0_3.index _ (0 : Fin 2) * 5000 ≤ (i 0).val ∧ (i 0).val < win0_3.index _ (0 : Fin 2) * 5000 + 5000
                rw [e30]; show (i 0).val / 5000 * 5000 ≤ (i 0).val ∧ (i 0).val < (i 0).val / 5000 * 5000 + 5000; omega
    | ⟨1, _⟩ => show win0_3.index _ (1 : Fin 2) * 20 ≤ (i 1).val ∧ (i 1).val < win0_3.index _ (1 : Fin 2) * 20 + 20
                rw [e31]; omega

/-! ## The edge layer -/

theorem pay1_eq (x0 : Vec Ideal S8000x32 .f32) (x1 : Vec Ideal S32x6 .f32) (x2 : Vec Ideal S1x6 .f32) :
    k1_pay1 (F := Ideal) x0 x1 x2 = affine2 (M := 8000) (K := 32) (N := 6) x0 x1 x2 := by
  unfold k1_pay1
  simp only [shapeCast_self]
  exact addf_matmul_broadcastTo (M := 8000) (K := 32) (N := 6) none x0 x1 x2 _

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The layer on the whole arrays as the region finds them. -/
def G1 (V : (c : Dev nD) → (b : Ref sig .tc) → Buf (Elt Ideal) ((c : Thread nD τ).loc b)) (c : Dev nD) : S1600000x6.Idx → EReal :=
  affine2 (M := 1600000) (K := 32) (N := 6) (V c main_arg1) (V c main_v6) (V c main_v10)

theorem flushed1_eq (V : (c : Dev nD) → (b : Ref sig .tc) → Buf (Elt Ideal) ((c : Thread nD τ).loc b)) (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  unfold out1_3
  rw [View.canon_unit_zero hz2]
  simp only [View.ld_unit_zero (S := S8000x32) hz2, View.ld_unit_zero (S := S32x6) hz2, View.ld_unit_zero (S := S1x6) hz2]
  rw [pay1_eq]
  obtain ⟨e00, e01, e10, e11, e20, e21, e30, e31⟩ := idx_facts1 t
  have hN : t.val < 200 := by have h := t.isLt; have e : cfg1.N = 200 := N_1; omega
  have hw : iblk1 (F := Ideal) V c 1 t = V c main_v6 := by
    funext y
    show V c main_v6 (((cfg1.win 1).blk t).view.emb y) = V c main_v6 y
    refine congrArg _ (funext fun a => Fin.ext ?_)
    match a with
    | ⟨0, _⟩ => show win1_1.index t (0 : Fin 2) * 32 + 1 * (y 0).val = (y 0).val; omega
    | ⟨1, _⟩ => show win1_1.index t (1 : Fin 2) * 6 + 1 * (y 1).val = (y 1).val; omega
  have hb : iblk1 (F := Ideal) V c 2 t = V c main_v10 := by
    funext y
    show V c main_v10 (((cfg1.win 2).blk t).view.emb y) = V c main_v10 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 6 + 1 * (y 1).val = (y 1).val; omega
  rw [hw, hb]
  funext j
  obtain ⟨p, q, rfl⟩ : ∃ (p : Fin 8000) (q : Fin 6), j = ix2 p q := ⟨j 0, j 1, eq_ix2 j⟩
  let ρ : Fin 8000 → Fin 1600000 := fun p => ⟨t.val * 8000 + p.val, by have := p.isLt; omega⟩
  have hemb : ((cfg1.win 3).blk t).view.emb (ix2 p q) = ix2 (ρ p) q := by
    funext a; apply Fin.ext
    match a with
    | ⟨0, _⟩ => show win1_3.index t (0 : Fin 2) * 8000 + 1 * p.val = t.val * 8000 + p.val; omega
    | ⟨1, _⟩ => show win1_3.index t (1 : Fin 2) * 6 + 1 * q.val = q.val; omega
  show affine2 (M := 8000) (K := 32) (N := 6) (iblk1 (F := Ideal) V c 0 t) (V c main_v6) (V c main_v10) (ix2 p q)
    = G1 V c (((cfg1.win 3).blk t).view.emb (ix2 p q))
  rw [hemb]
  refine affine2_rows (M := 8000) (M' := 1600000) (K := 32) (N := 6) (V c main_arg1) (iblk1 (F := Ideal) V c 0 t) (V c main_v6) (V c main_v10) ρ (fun p k => ?_) p q
  show V c main_arg1 (((cfg1.win 0).blk t).view.emb (ix2 p k)) = V c main_arg1 (ix2 (ρ p) k)
  refine congrArg _ (funext fun a => Fin.ext ?_)
  match a with
  | ⟨0, _⟩ => show win1_0.index t (0 : Fin 2) * 8000 + 1 * p.val = t.val * 8000 + p.val; omega
  | ⟨1, _⟩ => show win1_0.index t (1 : Fin 2) * 32 + 1 * k.val = k.val; omega

theorem mem_blk1 (t : Fin cfg1.N) (i : S1600000x6.Idx) :
    i ∈ ((cfg1.win 3).blk t).view.set ↔ ∀ a : Fin 2, win1_3.index t a * S8000x6.size a ≤ (i a).val ∧ (i a).val < win1_3.index t a * S8000x6.size a + S8000x6.size a := by
  show i ∈ ((View.whole main_v11).slice (win1_3.rect t)).set ↔ _
  rw [View.set_slice_whole, Rect.mem_set_unit]
  exact Iff.rfl

/-- The two hundred row blocks cover the result array, so it ends holding the layer on the whole arrays. -/
theorem final1 (V : (c : Dev nD) → (b : Ref sig .tc) → Buf (Elt Ideal) ((c : Thread nD τ).loc b)) (c : Dev nD) :
    (dat1 (F := Ideal) V c).arrAt 3 cfg1.N = G1 V c :=
  (dat1 (F := Ideal) V c).arrAt_eq_of_cover 3 (G1 V c) (fun t _ => flushed1_eq V c t) fun i => by
    have h0 : (i 0).val < 1600000 := (i 0).isLt
    have h1 : (i 1).val < 6 := (i 1).isLt
    refine ⟨⟨(i 0).val / 8000, by show _ < grid1.N; rw [N_1]; omega⟩, flush1_3 _, ?_⟩
    rw [mem_blk1]
    obtain ⟨e00, e01, e10, e11, e20, e21, e30, e31⟩ := idx_facts1 ⟨(i 0).val / 8000, by show _ < grid1.N; rw [N_1]; omega⟩
    intro a
    match a with
    | ⟨0, _⟩ => show win1_3.index _ (0 : Fin 2) * 8000 ≤ (i 0).val ∧ (i 0).val < win1_3.index _ (0 : Fin 2) * 8000 + 8000
                rw [e30]; show (i 0).val / 8000 * 8000 ≤ (i 0).val ∧ (i 0).val < (i 0).val / 8000 * 8000 + 8000; omega
    | ⟨1, _⟩ => show win1_3.index _ (1 : Fin 2) * 6 ≤ (i 1).val ∧ (i 1).val < win1_3.index _ (1 : Fin 2) * 6 + 6
                rw [e31]; omega

/-! ## The second node layer -/

theorem pay2_eq (x0 : Vec Ideal S2000x5 .f32) (x1 : Vec Ideal S5x4 .f32) (x2 : Vec Ideal S1x4 .f32) :
    k2_pay1 (F := Ideal) x0 x1 x2 = affine2 (M := 2000) (K := 5) (N := 4) x0 x1 x2 := by
  unfold k2_pay1
  simp only [shapeCast_self]
  exact addf_matmul_broadcastTo (M := 2000) (K := 5) (N := 4) none x0 x1 x2 _

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The layer on the whole arrays as the region finds them. -/
def G2 (V : (c : Dev nD) → (b : Ref sig .tc) → Buf (Elt Ideal) ((c : Thread nD τ).loc b)) (c : Dev nD) : S100000x4.Idx → EReal :=
  affine2 (M := 100000) (K := 5) (N := 4) (V c main_v100) (V c main_v101) (V c main_v103)

theorem flushed2_eq (V : (c : Dev nD) → (b : Ref sig .tc) → Buf (Elt Ideal) ((c : Thread nD τ).loc b)) (c : Dev nD) (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  unfold out2_3
  rw [View.canon_unit_zero hz2]
  simp only [View.ld_unit_zero (S := S2000x5) hz2, View.ld_unit_zero (S := S5x4) hz2, View.ld_unit_zero (S := S1x4) hz2]
  rw [pay2_eq]
  obtain ⟨e00, e01, e10, e11, e20, e21, e30, e31⟩ := idx_facts2 t
  have hN : t.val < 50 := by have h := t.isLt; have e : cfg2.N = 50 := N_2; omega
  have hw : iblk2 (F := Ideal) V c 1 t = V c main_v101 := by
    funext y
    show V c main_v101 (((cfg2.win 1).blk t).view.emb y) = V c main_v101 y
    refine congrArg _ (funext fun a => Fin.ext ?_)
    match a with
    | ⟨0, _⟩ => show win2_1.index t (0 : Fin 2) * 5 + 1 * (y 0).val = (y 0).val; omega
    | ⟨1, _⟩ => show win2_1.index t (1 : Fin 2) * 4 + 1 * (y 1).val = (y 1).val; omega
  have hb : iblk2 (F := Ideal) V c 2 t = V c main_v103 := by
    funext y
    show V c main_v103 (((cfg2.win 2).blk t).view.emb y) = V c main_v103 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 4 + 1 * (y 1).val = (y 1).val; omega
  rw [hw, hb]
  funext j
  obtain ⟨p, q, rfl⟩ : ∃ (p : Fin 2000) (q : Fin 4), j = ix2 p q := ⟨j 0, j 1, eq_ix2 j⟩
  let ρ : Fin 2000 → Fin 100000 := fun p => ⟨t.val * 2000 + p.val, by have := p.isLt; omega⟩
  have hemb : ((cfg2.win 3).blk t).view.emb (ix2 p q) = ix2 (ρ p) q := by
    funext a; apply Fin.ext
    match a with
    | ⟨0, _⟩ => show win2_3.index t (0 : Fin 2) * 2000 + 1 * p.val = t.val * 2000 + p.val; omega
    | ⟨1, _⟩ => show win2_3.index t (1 : Fin 2) * 4 + 1 * q.val = q.val; omega
  show affine2 (M := 2000) (K := 5) (N := 4) (iblk2 (F := Ideal) V c 0 t) (V c main_v101) (V c main_v103) (ix2 p q)
    = G2 V c (((cfg2.win 3).blk t).view.emb (ix2 p q))
  rw [hemb]
  refine affine2_rows (M := 2000) (M' := 100000) (K := 5) (N := 4) (V c main_v100) (iblk2 (F := Ideal) V c 0 t) (V c main_v101) (V c main_v103) ρ (fun p k => ?_) p q
  show V c main_v100 (((cfg2.win 0).blk t).view.emb (ix2 p k)) = V c main_v100 (ix2 (ρ p) k)
  refine congrArg _ (funext fun a => Fin.ext ?_)
  match a with
  | ⟨0, _⟩ => show win2_0.index t (0 : Fin 2) * 2000 + 1 * p.val = t.val * 2000 + p.val; omega
  | ⟨1, _⟩ => show win2_0.index t (1 : Fin 2) * 5 + 1 * k.val = k.val; omega

theorem mem_blk2 (t : Fin cfg2.N) (i : S100000x4.Idx) :
    i ∈ ((cfg2.win 3).blk t).view.set ↔ ∀ a : Fin 2, win2_3.index t a * S2000x4.size a ≤ (i a).val ∧ (i a).val < win2_3.index t a * S2000x4.size a + S2000x4.size a := by
  show i ∈ ((View.whole main_v104).slice (win2_3.rect t)).set ↔ _
  rw [View.set_slice_whole, Rect.mem_set_unit]
  exact Iff.rfl

/-- The fifty row blocks cover the result array, so it ends holding the layer on the whole arrays. -/
theorem final2 (V : (c : Dev nD) → (b : Ref sig .tc) → Buf (Elt Ideal) ((c : Thread nD τ).loc b)) (c : Dev nD) :
    (dat2 (F := Ideal) V c).arrAt 3 cfg2.N = G2 V c :=
  (dat2 (F := Ideal) V c).arrAt_eq_of_cover 3 (G2 V c) (fun t _ => flushed2_eq V c t) fun i => by
    have h0 : (i 0).val < 100000 := (i 0).isLt
    have h1 : (i 1).val < 4 := (i 1).isLt
    refine ⟨⟨(i 0).val / 2000, by show _ < grid2.N; rw [N_2]; omega⟩, flush2_3 _, ?_⟩
    rw [mem_blk2]
    obtain ⟨e00, e01, e10, e11, e20, e21, e30, e31⟩ := idx_facts2 ⟨(i 0).val / 2000, by show _ < grid2.N; rw [N_2]; omega⟩
    intro a
    match a with
    | ⟨0, _⟩ => show win2_3.index _ (0 : Fin 2) * 2000 ≤ (i 0).val ∧ (i 0).val < win2_3.index _ (0 : Fin 2) * 2000 + 2000
                rw [e30]; show (i 0).val / 2000 * 2000 ≤ (i 0).val ∧ (i 0).val < (i 0).val / 2000 * 2000 + 2000; omega
    | ⟨1, _⟩ => show win2_3.index _ (1 : Fin 2) * 4 ≤ (i 1).val ∧ (i 1).val < win2_3.index _ (1 : Fin 2) * 4 + 4
                rw [e31]; omega

end Values

end Cert.KernelIdeal.Layer

end
-- ==== Proof.LayerSlices.lean ====
/-
  The three dense layers of the kernel program compute several of the reference's layers at once: the weight matrix is
  the reference's matrices set side by side and the bias row their biases end to end, so the slice of the result on one
  piece's columns is that piece's own affine layer. One statement per slice the program takes.
-/
import proofs.«150417_j61237643706857_2_alg».proof.Proof.Gen.KernelIdeal
import proofs.«150417_j61237643706857_2_alg».proof.Proof.LibAffineCols

noncomputable section

namespace Cert.KernelIdeal.Layer

open Cert.KernelIdeal Cert.KernelIdeal.Gen Cert.Dense Idealize.ShloMosaic Idealize.ShloMosaic.ValueIdx

/-! ## The first convolution's node layer: weights [Wk|Wq|Wv|Ws] (four 256×5 matrices side by side), biases end to end -/

section Node1
variable (x0 : Mat 100000 256) (w0 w1 w2 w3 : Mat 256 5) (b0 b1 b2 b3 : Row 5)

/-- The four weight matrices side by side. -/
def Wn1 : Mat 256 20 :=
  concatenate S256x20 1 [⟨S256x5, w0⟩, ⟨S256x5, w1⟩, ⟨S256x5, w2⟩, ⟨S256x5, w3⟩] concatenates_S256x5_S256x5_S256x5_S256x5_S256x20_d1
/-- The four biases end to end, as one row. -/
def bn1 : Mat 1 20 :=
  shapeCast S1x20 (concatenate S20 0 [⟨S5, b0⟩, ⟨S5, b1⟩, ⟨S5, b2⟩, ⟨S5, b3⟩] concatenates_S5_S5_S5_S5_S20_d0) shapeCasts_S20_S1x20

theorem node1_k : extractStridedSlice S100000x5 ![0, 0] (affine2 x0 (Wn1 w0 w1 w2 w3) (bn1 b0 b1 b2 b3)) slices_S100000x20_S100000x5_0_0
    = affine x0 w0 b0 :=
  slice_affine2 (M := 100000) (K := 256) (N := 20) (N' := 5) x0 _ _ w0 b0 0 (fun j => by have := j.isLt; omega) _
    (fun k j => concat_cols_apply (K := 256) (N := 20) _ _ 0 (by simp) w0 rfl 0 rfl k j _)
    (fun j => (row_of_vec_apply (N := 20) _ _ _).trans (concat_vec_apply (N := 20) _ _ 0 (by simp) b0 rfl 0 rfl j _))
theorem node1_q : extractStridedSlice S100000x5 ![0, 5] (affine2 x0 (Wn1 w0 w1 w2 w3) (bn1 b0 b1 b2 b3)) slices_S100000x20_S100000x5_0_5
    = affine x0 w1 b1 :=
  slice_affine2 (M := 100000) (K := 256) (N := 20) (N' := 5) x0 _ _ w1 b1 5 (fun j => by have := j.isLt; omega) _
    (fun k j => concat_cols_apply (K := 256) (N := 20) _ _ 1 (by simp) w1 rfl 5 rfl k j _)
    (fun j => (row_of_vec_apply (N := 20) _ _ _).trans (concat_vec_apply (N := 20) _ _ 1 (by simp) b1 rfl 5 rfl j _))
theorem node1_v : extractStridedSlice S100000x5 ![0, 10] (affine2 x0 (Wn1 w0 w1 w2 w3) (bn1 b0 b1 b2 b3)) slices_S100000x20_S100000x5_0_10
    = affine x0 w2 b2 :=
  slice_affine2 (M := 100000) (K := 256) (N := 20) (N' := 5) x0 _ _ w2 b2 10 (fun j => by have := j.isLt; omega) _
    (fun k j => concat_cols_apply (K := 256) (N := 20) _ _ 2 (by simp) w2 rfl 10 rfl k j _)
    (fun j => (row_of_vec_apply (N := 20) _ _ _).trans (concat_vec_apply (N := 20) _ _ 2 (by simp) b2 rfl 10 rfl j _))
theorem node1_s : extractStridedSlice S100000x5 ![0, 15] (affine2 x0 (Wn1 w0 w1 w2 w3) (bn1 b0 b1 b2 b3)) slices_S100000x20_S100000x5_0_15
    = affine x0 w3 b3 :=
  slice_affine2 (M := 100000) (K := 256) (N := 20) (N' := 5) x0 _ _ w3 b3 15 (fun j => by have := j.isLt; omega) _
    (fun k j => concat_cols_apply (K := 256) (N := 20) _ _ 3 (by simp) w3 rfl 15 rfl k j _)
    (fun j => (row_of_vec_apply (N := 20) _ _ _).trans (concat_vec_apply (N := 20) _ _ 3 (by simp) b3 rfl 15 rfl j _))
end Node1

/-! ## The edge layer: weights [We1|We2] (32×5 beside 32×1), biases end to end -/

section Edge
variable (x1 : Mat 1600000 32) (w0 : Mat 32 5) (w1 : Mat 32 1) (b0 : Row 5) (b1 : Row 1)

def We : Mat 32 6 := concatenate S32x6 1 [⟨S32x5, w0⟩, ⟨S32x1, w1⟩] concatenates_S32x5_S32x1_S32x6_d1
def be : Mat 1 6 := shapeCast S1x6 (concatenate S6 0 [⟨S5, b0⟩, ⟨S1, b1⟩] concatenates_S5_S1_S6_d0) shapeCasts_S6_S1x6

theorem edge_1 : extractStridedSlice S1600000x5 ![0, 0] (affine2 x1 (We w0 w1) (be b0 b1)) slices_S1600000x6_S1600000x5_0_0
    = affine x1 w0 b0 :=
  slice_affine2 (M := 1600000) (K := 32) (N := 6) (N' := 5) x1 _ _ w0 b0 0 (fun j => by have := j.isLt; omega) _
    (fun k j => concat_cols_apply (K := 32) (N := 6) _ _ 0 (by simp) w0 rfl 0 rfl k j _)
    (fun j => (row_of_vec_apply (N := 6) _ _ _).trans (concat_vec_apply (N := 6) _ _ 0 (by simp) b0 rfl 0 rfl j _))
theorem edge_2 : extractStridedSlice S1600000x1 ![0, 5] (affine2 x1 (We w0 w1) (be b0 b1)) slices_S1600000x6_S1600000x1_0_5
    = affine x1 w1 b1 :=
  slice_affine2 (M := 1600000) (K := 32) (N := 6) (N' := 1) x1 _ _ w1 b1 5 (fun j => by have := j.isLt; omega) _
    (fun k j => concat_cols_apply (K := 32) (N := 6) _ _ 1 (by simp) w1 rfl 5 rfl k j _)
    (fun j => (row_of_vec_apply (N := 6) _ _ _).trans (concat_vec_apply (N := 6) _ _ 1 (by simp) b1 rfl 5 rfl j _))
end Edge

/-! ## The second convolution's node layer: weights four 5×1 columns side by side, biases end to end -/

section Node2
variable (h : Mat 100000 5) (w0 w1 w2 w3 : Mat 5 1) (b0 b1 b2 b3 : Row 1)

def Wn2 : Mat 5 4 :=
  concatenate S5x4 1 [⟨S5x1, w0⟩, ⟨S5x1, w1⟩, ⟨S5x1, w2⟩, ⟨S5x1, w3⟩] concatenates_S5x1_S5x1_S5x1_S5x1_S5x4_d1
def bn2 : Mat 1 4 :=
  shapeCast S1x4 (concatenate S4 0 [⟨S1, b0⟩, ⟨S1, b1⟩, ⟨S1, b2⟩, ⟨S1, b3⟩] concatenates_S1_S1_S1_S1_S4_d0) shapeCasts_S4_S1x4

theorem node2_k : extractStridedSlice S100000x1 ![0, 0] (affine2 h (Wn2 w0 w1 w2 w3) (bn2 b0 b1 b2 b3)) slices_S100000x4_S100000x1_0_0
    = affine h w0 b0 :=
  slice_affine2 (M := 100000) (K := 5) (N := 4) (N' := 1) h _ _ w0 b0 0 (fun j => by have := j.isLt; omega) _
    (fun k j => concat_cols_apply (K := 5) (N := 4) _ _ 0 (by simp) w0 rfl 0 rfl k j _)
    (fun j => (row_of_vec_apply (N := 4) _ _ _).trans (concat_vec_apply (N := 4) _ _ 0 (by simp) b0 rfl 0 rfl j _))
theorem node2_q : extractStridedSlice S100000x1 ![0, 1] (affine2 h (Wn2 w0 w1 w2 w3) (bn2 b0 b1 b2 b3)) slices_S100000x4_S100000x1_0_1
    = affine h w1 b1 :=
  slice_affine2 (M := 100000) (K := 5) (N := 4) (N' := 1) h _ _ w1 b1 1 (fun j => by have := j.isLt; omega) _
    (fun k j => concat_cols_apply (K := 5) (N := 4) _ _ 1 (by simp) w1 rfl 1 rfl k j _)
    (fun j => (row_of_vec_apply (N := 4) _ _ _).trans (concat_vec_apply (N := 4) _ _ 1 (by simp) b1 rfl 1 rfl j _))
theorem node2_v : extractStridedSlice S100000x1 ![0, 2] (affine2 h (Wn2 w0 w1 w2 w3) (bn2 b0 b1 b2 b3)) slices_S100000x4_S100000x1_0_2
    = affine h w2 b2 :=
  slice_affine2 (M := 100000) (K := 5) (N := 4) (N' := 1) h _ _ w2 b2 2 (fun j => by have := j.isLt; omega) _
    (fun k j => concat_cols_apply (K := 5) (N := 4) _ _ 2 (by simp) w2 rfl 2 rfl k j _)
    (fun j => (row_of_vec_apply (N := 4) _ _ _).trans (concat_vec_apply (N := 4) _ _ 2 (by simp) b2 rfl 2 rfl j _))
theorem node2_s : extractStridedSlice S100000x1 ![0, 3] (affine2 h (Wn2 w0 w1 w2 w3) (bn2 b0 b1 b2 b3)) slices_S100000x4_S100000x1_0_3
    = affine h w3 b3 :=
  slice_affine2 (M := 100000) (K := 5) (N := 4) (N' := 1) h _ _ w3 b3 3 (fun j => by have := j.isLt; omega) _
    (fun k j => concat_cols_apply (K := 5) (N := 4) _ _ 3 (by simp) w3 rfl 3 rfl k j _)
    (fun j => (row_of_vec_apply (N := 4) _ _ _).trans (concat_vec_apply (N := 4) _ _ 3 (by simp) b3 rfl 3 rfl j _))
end Node2

end Cert.KernelIdeal.Layer

end
-- ==== Proof.Bridge.lean ====
/-
  The kernel program's result against the reference's, stretch by stretch. The reference's operations are named stage by
  stage as functions of the arguments. The kernel program's three dense layers compute the reference's ten affine layers
  (a slice of columns of a layer over weights set side by side is the piece's own layer); its long host stretches are
  the reference's operations on those layers' results, except that the reference adds the skip product and then the bias
  to the aggregated messages where the kernel program adds their sum — one associativity of addition on the extended
  reals, which needs no finiteness. So each boundary buffer of the kernel program holds the matching reference stage of
  the launch arguments, down to the result.
-/
import proofs.«150417_j61237643706857_2_alg».proof.Proof.LayerValue
import proofs.«150417_j61237643706857_2_alg».proof.Proof.LayerSlices
import proofs.«150417_j61237643706857_2_alg».proof.Proof.Gen.ReferenceIdeal.Read

set_option maxRecDepth 16384

noncomputable section

namespace Cert.KernelIdeal.Layer

open Cert.KernelIdeal Cert.KernelIdeal.Gen Cert.Dense Cert.ReferenceIdeal.Read
open Idealize.ShloMosaic Idealize.ShloMosaic.TcCoe Idealize.ShloMosaic.StableHlo Idealize.SL.Sem

/-- Addition of arrays of extended reals is associative. -/
theorem addf_assoc3 {s : Shape} (a b c : FVec Ideal s .f32) : addf a (addf b c) = addf (addf a b) c :=
  funext fun i => (add_assoc (a i) (b i) (c i)).symm

/-! ## The reference's affine layers -/

section Stages
variable {x0 : (⟨S100000x256, .f32⟩ : BufTy).Contents (Elt Ideal)} {x1 : (⟨S1600000x32, .f32⟩ : BufTy).Contents (Elt Ideal)} {x2 : (⟨S2x1600000, .i32⟩ : BufTy).Contents (Elt Ideal)} {x3 : (⟨S100000, .i32⟩ : BufTy).Contents (Elt Ideal)}
  {x4 : (⟨S256x5, .f32⟩ : BufTy).Contents (Elt Ideal)} {x5 : (⟨S5, .f32⟩ : BufTy).Contents (Elt Ideal)} {x6 : (⟨S256x5, .f32⟩ : BufTy).Contents (Elt Ideal)} {x7 : (⟨S5, .f32⟩ : BufTy).Contents (Elt Ideal)} {x8 : (⟨S256x5, .f32⟩ : BufTy).Contents (Elt Ideal)} {x9 : (⟨S5, .f32⟩ : BufTy).Contents (Elt Ideal)}
  {x10 : (⟨S32x5, .f32⟩ : BufTy).Contents (Elt Ideal)} {x11 : (⟨S5, .f32⟩ : BufTy).Contents (Elt Ideal)} {x12 : (⟨S256x5, .f32⟩ : BufTy).Contents (Elt Ideal)} {x13 x14 x15 x16 : (⟨S5, .f32⟩ : BufTy).Contents (Elt Ideal)}
  {x17 : (⟨S5x1, .f32⟩ : BufTy).Contents (Elt Ideal)} {x18 : (⟨S1, .f32⟩ : BufTy).Contents (Elt Ideal)} {x19 : (⟨S5x1, .f32⟩ : BufTy).Contents (Elt Ideal)} {x20 : (⟨S1, .f32⟩ : BufTy).Contents (Elt Ideal)} {x21 : (⟨S5x1, .f32⟩ : BufTy).Contents (Elt Ideal)} {x22 : (⟨S1, .f32⟩ : BufTy).Contents (Elt Ideal)}
  {x23 : (⟨S32x1, .f32⟩ : BufTy).Contents (Elt Ideal)} {x24 : (⟨S1, .f32⟩ : BufTy).Contents (Elt Ideal)} {x25 : (⟨S5x1, .f32⟩ : BufTy).Contents (Elt Ideal)} {x26 : (⟨S1, .f32⟩ : BufTy).Contents (Elt Ideal)}

theorem ref_k1 : affine (M := 100000) (K := 256) (N := 5) x0 x4 x5 = val_main_v7 (F := Ideal) x0 x4 x5 := by
  unfold val_main_v7 val_main_v4 val_main_v6 val_main_v5
  exact (addf_dotGeneral_broadcastInDim (M := 100000) (K := 256) (N := 5) x0 x4 x5 _ _).symm
theorem ref_q1 : affine (M := 100000) (K := 256) (N := 5) x0 x6 x7 = val_main_v11 (F := Ideal) x0 x6 x7 := by
  unfold val_main_v11 val_main_v8 val_main_v10 val_main_v9
  exact (addf_dotGeneral_broadcastInDim (M := 100000) (K := 256) (N := 5) x0 x6 x7 _ _).symm
theorem ref_v1 : affine (M := 100000) (K := 256) (N := 5) x0 x8 x9 = val_main_v15 (F := Ideal) x0 x8 x9 := by
  unfold val_main_v15 val_main_v12 val_main_v14 val_main_v13
  exact (addf_dotGeneral_broadcastInDim (M := 100000) (K := 256) (N := 5) x0 x8 x9 _ _).symm
theorem ref_s1 : addf (F := Ideal) (s := S100000x5) (φ := .f32) (val_main_v56 (F := Ideal) x0 x12) (val_main_v59 (F := Ideal) x13)
    = affine (M := 100000) (K := 256) (N := 5) x0 x12 x13 := by
  unfold val_main_v56 val_main_v59 val_main_v58
  exact addf_dotGeneral_broadcastInDim (M := 100000) (K := 256) (N := 5) x0 x12 x13 _ _
theorem ref_e1 : affine (M := 1600000) (K := 32) (N := 5) x1 x10 x11 = val_main_v19 (F := Ideal) x1 x10 x11 := by
  unfold val_main_v19 val_main_v16 val_main_v18 val_main_v17
  exact (addf_dotGeneral_broadcastInDim (M := 1600000) (K := 32) (N := 5) x1 x10 x11 _ _).symm
theorem ref_e2 : affine (M := 1600000) (K := 32) (N := 1) x1 x23 x24 = val_main_v122 (F := Ideal) x1 x23 x24 := by
  unfold val_main_v122 val_main_v119 val_main_v121 val_main_v120
  exact (addf_dotGeneral_broadcastInDim (M := 1600000) (K := 32) (N := 1) x1 x23 x24 _ _).symm
theorem ref_k2 : affine (M := 100000) (K := 5) (N := 1) (val_main_v106 (F := Ideal) x0 x1 x2 x3 x4 x5 x6 x7 x8 x9 x10 x11 x12 x13 x14 x15 x16) x17 x18 = val_main_v110 (F := Ideal) x0 x1 x2 x3 x4 x5 x6 x7 x8 x9 x10 x11 x12 x13 x14 x15 x16 x17 x18 := by
  unfold val_main_v110 val_main_v107 val_main_v109 val_main_v108
  exact (addf_dotGeneral_broadcastInDim (M := 100000) (K := 5) (N := 1) _ x17 x18 _ _).symm
theorem ref_q2 : affine (M := 100000) (K := 5) (N := 1) (val_main_v106 (F := Ideal) x0 x1 x2 x3 x4 x5 x6 x7 x8 x9 x10 x11 x12 x13 x14 x15 x16) x19 x20 = val_main_v114 (F := Ideal) x0 x1 x2 x3 x4 x5 x6 x7 x8 x9 x10 x11 x12 x13 x14 x15 x16 x19 x20 := by
  unfold val_main_v114 val_main_v111 val_main_v113 val_main_v112
  exact (addf_dotGeneral_broadcastInDim (M := 100000) (K := 5) (N := 1) _ x19 x20 _ _).symm
theorem ref_v2 : affine (M := 100000) (K := 5) (N := 1) (val_main_v106 (F := Ideal) x0 x1 x2 x3 x4 x5 x6 x7 x8 x9 x10 x11 x12 x13 x14 x15 x16) x21 x22 = val_main_v118 (F := Ideal) x0 x1 x2 x3 x4 x5 x6 x7 x8 x9 x10 x11 x12 x13 x14 x15 x16 x21 x22 := by
  unfold val_main_v118 val_main_v115 val_main_v117 val_main_v116
  exact (addf_dotGeneral_broadcastInDim (M := 100000) (K := 5) (N := 1) _ x21 x22 _ _).symm
theorem ref_s2 : addf (F := Ideal) (s := S100000x1) (φ := .f32) (val_main_v159 (F := Ideal) x0 x1 x2 x3 x4 x5 x6 x7 x8 x9 x10 x11 x12 x13 x14 x15 x16 x25) (val_main_v162 (F := Ideal) x26)
    = affine (M := 100000) (K := 5) (N := 1) (val_main_v106 (F := Ideal) x0 x1 x2 x3 x4 x5 x6 x7 x8 x9 x10 x11 x12 x13 x14 x15 x16) x25 x26 := by
  unfold val_main_v159 val_main_v162 val_main_v161
  exact addf_dotGeneral_broadcastInDim (M := 100000) (K := 5) (N := 1) _ x25 x26 _ _

/-! ## The long host stretches, over any contents whose leaves are the layers' results -/

set_option maxHeartbeats 16000000 in
/-- The stretch after the edge layer: from the two layers' result arrays and the index rows to the normalised hidden
    activations before the rectifier. -/
theorem mid_eq (V : Valuation τ sig (Elt Ideal))
    (h9 : V (Proc.devRef .tc main_v9) = affine2 (M := 100000) (K := 256) (N := 20) x0 (Wn1 x4 x6 x8 x12) (bn1 x5 x7 x9 x13))
    (h11 : V (Proc.devRef .tc main_v11) = affine2 (M := 1600000) (K := 32) (N := 6) x1 (We x10 x23) (be x11 x24))
    (h1 : V (Proc.devRef .tc main_v1) = val_main_v1 (F := Ideal) x2) (h3 : V (Proc.devRef .tc main_v3) = val_main_v3 (F := Ideal) x2)
    (ha3 : V (Proc.devRef .tc main_arg3) = x3) (ha14 : V (Proc.devRef .tc main_arg14) = x14)
    (ha15 : V (Proc.devRef .tc main_arg15) = x15) (ha16 : V (Proc.devRef .tc main_arg16) = x16) :
    StableHlo.after (hostOps2 (F := Ideal)) V (Proc.devRef .tc main_v99) = val_main_v105 (F := Ideal) x0 x1 x2 x3 x4 x5 x6 x7 x8 x9 x10 x11 x12 x13 x14 x15 x16 := by
  after_results_simp
  rw [h9, h11, h1, h3, ha3, ha14, ha15, ha16]
  rw [node1_k, node1_q, node1_v, node1_s, edge_1]
  rw [ref_k1, ref_q1, ref_v1, ← ref_s1, ref_e1]
  rw [addf_assoc3 (s := S100000x5) _ (val_main_v56 (F := Ideal) x0 x12) (val_main_v59 (F := Ideal) x13)]
  rfl

set_option maxHeartbeats 16000000 in
/-- The same stretch leaves the second convolution's edge term and the index rows as the reference has them. -/
theorem mid_e2 (V : Valuation τ sig (Elt Ideal))
    (h11 : V (Proc.devRef .tc main_v11) = affine2 (M := 1600000) (K := 32) (N := 6) x1 (We x10 x23) (be x11 x24)) :
    StableHlo.after (hostOps2 (F := Ideal)) V (Proc.devRef .tc main_v17) = val_main_v122 (F := Ideal) x1 x23 x24 := by
  after_results_simp
  rw [h11, edge_2, ref_e2]

set_option maxHeartbeats 16000000 in
/-- The last stretch: from the second node layer's result array, the edge term and the index rows to the result. -/
theorem tail_eq (V : Valuation τ sig (Elt Ideal))
    (h104 : V (Proc.devRef .tc main_v104) = affine2 (M := 100000) (K := 5) (N := 4) (val_main_v106 (F := Ideal) x0 x1 x2 x3 x4 x5 x6 x7 x8 x9 x10 x11 x12 x13 x14 x15 x16) (Wn2 x17 x19 x21 x25) (bn2 x18 x20 x22 x26))
    (h17 : V (Proc.devRef .tc main_v17) = val_main_v122 (F := Ideal) x1 x23 x24)
    (h1 : V (Proc.devRef .tc main_v1) = val_main_v1 (F := Ideal) x2) (h3 : V (Proc.devRef .tc main_v3) = val_main_v3 (F := Ideal) x2) :
    StableHlo.after (hostOps3 (F := Ideal)) V (Proc.devRef .tc main_v151) = val_main_v169 (F := Ideal) x0 x1 x2 x3 x4 x5 x6 x7 x8 x9 x10 x11 x12 x13 x14 x15 x16 x17 x18 x19 x20 x21 x22 x23 x24 x25 x26 := by
  after_results_simp
  rw [h104, h17, h1, h3]
  rw [node2_k, node2_q, node2_v, node2_s]
  rw [ref_k2, ref_q2, ref_v2, ← ref_s2]
  rw [addf_assoc3 (s := S100000x1) _ (val_main_v159 (F := Ideal) x0 x1 x2 x3 x4 x5 x6 x7 x8 x9 x10 x11 x12 x13 x14 x15 x16 x25) (val_main_v162 (F := Ideal) x26)]
  rfl

end Stages

/-! ## The short host stretches, over any contents -/

section Reads
variable (V : Valuation τ sig (Elt Ideal))

theorem rd0_v4 : StableHlo.after (hostOps0 (F := Ideal)) V (Proc.devRef .tc main_v4)
    = Wn1 (V (Proc.devRef .tc main_arg4)) (V (Proc.devRef .tc main_arg6)) (V (Proc.devRef .tc main_arg8)) (V (Proc.devRef .tc main_arg12)) := by
  after_results <;> rfl
theorem rd0_v8 : StableHlo.after (hostOps0 (F := Ideal)) V (Proc.devRef .tc main_v8)
    = bn1 (V (Proc.devRef .tc main_arg5)) (V (Proc.devRef .tc main_arg7)) (V (Proc.devRef .tc main_arg9)) (V (Proc.devRef .tc main_arg13)) := by
  after_results <;> rfl
theorem rd0_v6 : StableHlo.after (hostOps0 (F := Ideal)) V (Proc.devRef .tc main_v6) = We (V (Proc.devRef .tc main_arg10)) (V (Proc.devRef .tc main_arg23)) := by
  after_results <;> rfl
theorem rd0_v7 : StableHlo.after (hostOps0 (F := Ideal)) V (Proc.devRef .tc main_v7)
    = concatenate S6 0 [⟨S5, V (Proc.devRef .tc main_arg11)⟩, ⟨S1, V (Proc.devRef .tc main_arg24)⟩] concatenates_S5_S1_S6_d0 := by
  after_results <;> rfl
theorem rd0_v1 : StableHlo.after (hostOps0 (F := Ideal)) V (Proc.devRef .tc main_v1) = val_main_v1 (F := Ideal) (V (Proc.devRef .tc main_arg2)) := by
  after_results <;> rfl
theorem rd0_v3 : StableHlo.after (hostOps0 (F := Ideal)) V (Proc.devRef .tc main_v3) = val_main_v3 (F := Ideal) (V (Proc.devRef .tc main_arg2)) := by
  after_results <;> rfl

theorem rd1_v10 : StableHlo.after (hostOps1 (F := Ideal)) V (Proc.devRef .tc main_v10) = shapeCast S1x6 (V (Proc.devRef .tc main_v7)) shapeCasts_S6_S1x6 := by
  after_results <;> rfl
theorem rd1_v9 : StableHlo.after (hostOps1 (F := Ideal)) V (Proc.devRef .tc main_v9) = V (Proc.devRef .tc main_v9) := by after_results
theorem rd1_v6 : StableHlo.after (hostOps1 (F := Ideal)) V (Proc.devRef .tc main_v6) = V (Proc.devRef .tc main_v6) := by after_results
theorem rd1_v1 : StableHlo.after (hostOps1 (F := Ideal)) V (Proc.devRef .tc main_v1) = V (Proc.devRef .tc main_v1) := by after_results
theorem rd1_v3 : StableHlo.after (hostOps1 (F := Ideal)) V (Proc.devRef .tc main_v3) = V (Proc.devRef .tc main_v3) := by after_results

set_option maxHeartbeats 16000000 in
theorem rd2_v1 : StableHlo.after (hostOps2 (F := Ideal)) V (Proc.devRef .tc main_v1) = V (Proc.devRef .tc main_v1) := by after_results_simp
set_option maxHeartbeats 16000000 in
theorem rd2_v3 : StableHlo.after (hostOps2 (F := Ideal)) V (Proc.devRef .tc main_v3) = V (Proc.devRef .tc main_v3) := by after_results_simp

/-- The rectifier's stretch. -/
theorem rd21_v100 : StableHlo.after (hostOps2_1 (F := Ideal)) V (Proc.devRef .tc main_v100)
    = maximumf (V (Proc.devRef .tc main_v99)) (broadcastInDim S100000x5 ![] bcast_S_S100000x5 (constant (F := Ideal) S_ .f32 0x00000000#32)) := by
  after_results <;> rfl
theorem rd21_v17 : StableHlo.after (hostOps2_1 (F := Ideal)) V (Proc.devRef .tc main_v17) = V (Proc.devRef .tc main_v17) := by after_results
theorem rd21_v1 : StableHlo.after (hostOps2_1 (F := Ideal)) V (Proc.devRef .tc main_v1) = V (Proc.devRef .tc main_v1) := by after_results
theorem rd21_v3 : StableHlo.after (hostOps2_1 (F := Ideal)) V (Proc.devRef .tc main_v3) = V (Proc.devRef .tc main_v3) := by after_results

theorem rd22_v101 : StableHlo.after (hostOps2_2 (F := Ideal)) V (Proc.devRef .tc main_v101)
    = Wn2 (V (Proc.devRef .tc main_arg17)) (V (Proc.devRef .tc main_arg19)) (V (Proc.devRef .tc main_arg21)) (V (Proc.devRef .tc main_arg25)) := by
  after_results <;> rfl
theorem rd22_v103 : StableHlo.after (hostOps2_2 (F := Ideal)) V (Proc.devRef .tc main_v103)
    = bn2 (V (Proc.devRef .tc main_arg18)) (V (Proc.devRef .tc main_arg20)) (V (Proc.devRef .tc main_arg22)) (V (Proc.devRef .tc main_arg26)) := by
  after_results <;> rfl
theorem rd22_v100 : StableHlo.after (hostOps2_2 (F := Ideal)) V (Proc.devRef .tc main_v100) = V (Proc.devRef .tc main_v100) := by after_results
theorem rd22_v17 : StableHlo.after (hostOps2_2 (F := Ideal)) V (Proc.devRef .tc main_v17) = V (Proc.devRef .tc main_v17) := by after_results
theorem rd22_v1 : StableHlo.after (hostOps2_2 (F := Ideal)) V (Proc.devRef .tc main_v1) = V (Proc.devRef .tc main_v1) := by after_results
theorem rd22_v3 : StableHlo.after (hostOps2_2 (F := Ideal)) V (Proc.devRef .tc main_v3) = V (Proc.devRef .tc main_v3) := by after_results

end Reads

/-! ## The run's boundaries -/

section Run
variable (m : (ℓ : Loc nD τ sig) → Buf (Elt Ideal) ℓ) (ρ : Dev nD → PrngReg) (c : Dev nD)

/-- An argument holds its launch contents at every boundary. -/
theorem W1_a (a : Ref sig .tc) (ha : a.idx.val < 27) : W1 m ρ c (Proc.devRef .tc a) = m ((c : Thread nD τ).loc a) :=
  (keep_of_past past0 _ a ha).trans rfl
theorem W2_a (a : Ref sig .tc) (ha : a.idx.val < 27) : W2 m ρ c (Proc.devRef .tc a) = m ((c : Thread nD τ).loc a) :=
  (W2_arg m ρ c a ha).trans (W1_a m ρ c a ha)
theorem W3_a (a : Ref sig .tc) (ha : a.idx.val < 27) : W3 m ρ c (Proc.devRef .tc a) = m ((c : Thread nD τ).loc a) :=
  (keep_of_past past1 _ a ha).trans (W2_a m ρ c a ha)
theorem W4_a (a : Ref sig .tc) (ha : a.idx.val < 27) : W4 m ρ c (Proc.devRef .tc a) = m ((c : Thread nD τ).loc a) :=
  (W4_arg m ρ c a ha).trans (W3_a m ρ c a ha)
theorem W5_a (a : Ref sig .tc) (ha : a.idx.val < 27) : W5 m ρ c (Proc.devRef .tc a) = m ((c : Thread nD τ).loc a) :=
  (keep_of_past past2 _ a ha).trans (W4_a m ρ c a ha)
theorem W6_a (a : Ref sig .tc) (ha : a.idx.val < 27) : W6 m ρ c (Proc.devRef .tc a) = m ((c : Thread nD τ).loc a) :=
  (keep_of_past past2_1 _ a ha).trans (W5_a m ρ c a ha)

/-- The first node layer's result array: the affine layer of x with the four weight matrices side by side. -/
theorem W2_v9 : W2 m ρ c (Proc.devRef .tc main_v9)
    = affine2 (M := 100000) (K := 256) (N := 20) (m ((c : Thread nD τ).loc main_arg0)) (Wn1 (m ((c : Thread nD τ).loc main_arg4)) (m ((c : Thread nD τ).loc main_arg6)) (m ((c : Thread nD τ).loc main_arg8)) (m ((c : Thread nD τ).loc main_arg12))) (bn1 (m ((c : Thread nD τ).loc main_arg5)) (m ((c : Thread nD τ).loc main_arg7)) (m ((c : Thread nD τ).loc main_arg9)) (m ((c : Thread nD τ).loc main_arg13))) := by
  refine ((W2_arr m ρ c 3).trans (final0 (V1 m ρ) c)).trans ?_
  unfold G0
  rw [show V1 m ρ c main_arg0 = (m ((c : Thread nD τ).loc main_arg0)) from W1_a m ρ c main_arg0 (by decide),
    show V1 m ρ c main_v4 = _ from rd0_v4 (W0 m ρ c), show V1 m ρ c main_v8 = _ from rd0_v8 (W0 m ρ c)]
theorem W4_v9 : W4 m ρ c (Proc.devRef .tc main_v9)
    = affine2 (M := 100000) (K := 256) (N := 20) (m ((c : Thread nD τ).loc main_arg0)) (Wn1 (m ((c : Thread nD τ).loc main_arg4)) (m ((c : Thread nD τ).loc main_arg6)) (m ((c : Thread nD τ).loc main_arg8)) (m ((c : Thread nD τ).loc main_arg12))) (bn1 (m ((c : Thread nD τ).loc main_arg5)) (m ((c : Thread nD τ).loc main_arg7)) (m ((c : Thread nD τ).loc main_arg9)) (m ((c : Thread nD τ).loc main_arg13))) :=
  (W4_of_ne m ρ c main_v9 (by decide)).trans ((rd1_v9 (W2 m ρ c)).trans (W2_v9 m ρ c))

/-- The edge layer's result array. -/
theorem W4_v11 : W4 m ρ c (Proc.devRef .tc main_v11)
    = affine2 (M := 1600000) (K := 32) (N := 6) (m ((c : Thread nD τ).loc main_arg1)) (We (m ((c : Thread nD τ).loc main_arg10)) (m ((c : Thread nD τ).loc main_arg23))) (be (m ((c : Thread nD τ).loc main_arg11)) (m ((c : Thread nD τ).loc main_arg24))) := by
  refine ((W4_arr m ρ c 3).trans (final1 (V3 m ρ) c)).trans ?_
  unfold G1
  rw [show V3 m ρ c main_arg1 = (m ((c : Thread nD τ).loc main_arg1)) from W3_a m ρ c main_arg1 (by decide),
    show V3 m ρ c main_v6 = _ from (rd1_v6 (W2 m ρ c)).trans ((W2_of_ne m ρ c main_v6 (by decide)).trans (rd0_v6 (W0 m ρ c))),
    show V3 m ρ c main_v10 = _ from (rd1_v10 (W2 m ρ c)).trans (congrArg (fun v => shapeCast S1x6 v shapeCasts_S6_S1x6)
      ((W2_of_ne m ρ c main_v7 (by decide)).trans (rd0_v7 (W0 m ρ c))))]
  rfl

/-- The index rows reach every later boundary as the reference has them. -/
theorem W4_v1 : W4 m ρ c (Proc.devRef .tc main_v1) = val_main_v1 (F := Ideal) (m ((c : Thread nD τ).loc main_arg2)) :=
  (W4_of_ne m ρ c main_v1 (by decide)).trans ((rd1_v1 (W2 m ρ c)).trans ((W2_of_ne m ρ c main_v1 (by decide)).trans (rd0_v1 (W0 m ρ c))))
theorem W4_v3 : W4 m ρ c (Proc.devRef .tc main_v3) = val_main_v3 (F := Ideal) (m ((c : Thread nD τ).loc main_arg2)) :=
  (W4_of_ne m ρ c main_v3 (by decide)).trans ((rd1_v3 (W2 m ρ c)).trans ((W2_of_ne m ρ c main_v3 (by decide)).trans (rd0_v3 (W0 m ρ c))))

/-- The hidden activations before the rectifier. -/
theorem W5_v99 : W5 m ρ c (Proc.devRef .tc main_v99) = val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  mid_eq (W4 m ρ c) (W4_v9 m ρ c) (W4_v11 m ρ c) (W4_v1 m ρ c) (W4_v3 m ρ c) (W4_a m ρ c main_arg3 (by decide))
    (W4_a m ρ c main_arg14 (by decide)) (W4_a m ρ c main_arg15 (by decide)) (W4_a m ρ c main_arg16 (by decide))
theorem W5_v17 : W5 m ρ c (Proc.devRef .tc main_v17) = val_main_v122 (F := Ideal) (m ((c : Thread nD τ).loc main_arg1)) (m ((c : Thread nD τ).loc main_arg23)) (m ((c : Thread nD τ).loc main_arg24)) :=
  mid_e2 (W4 m ρ c) (W4_v11 m ρ c)

/-- The hidden activations. -/
theorem W7_v100 : W7 m ρ c (Proc.devRef .tc main_v100) = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (rd22_v100 (W6 m ρ c)).trans ((rd21_v100 (W5 m ρ c)).trans ?_)
  rw [W5_v99 m ρ c]
  rfl

/-- The second node layer's result array. -/
theorem W8_v104 : W8 m ρ c (Proc.devRef .tc main_v104)
    = affine2 (M := 100000) (K := 5) (N := 4) (val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))
        (Wn2 (m ((c : Thread nD τ).loc main_arg17)) (m ((c : Thread nD τ).loc main_arg19)) (m ((c : Thread nD τ).loc main_arg21)) (m ((c : Thread nD τ).loc main_arg25))) (bn2 (m ((c : Thread nD τ).loc main_arg18)) (m ((c : Thread nD τ).loc main_arg20)) (m ((c : Thread nD τ).loc main_arg22)) (m ((c : Thread nD τ).loc main_arg26))) := by
  refine ((W8_arr m ρ c 3).trans (final2 (V7 m ρ) c)).trans ?_
  unfold G2
  rw [show V7 m ρ c main_v100 = _ from W7_v100 m ρ c,
    show V7 m ρ c main_v101 = _ from rd22_v101 (W6 m ρ c), show V7 m ρ c main_v103 = _ from rd22_v103 (W6 m ρ c),
    W6_a m ρ c main_arg17 (by decide), W6_a m ρ c main_arg19 (by decide), W6_a m ρ c main_arg21 (by decide), W6_a m ρ c main_arg25 (by decide),
    W6_a m ρ c main_arg18 (by decide), W6_a m ρ c main_arg20 (by decide), W6_a m ρ c main_arg22 (by decide), W6_a m ρ c main_arg26 (by decide)]

/-- The result. -/
theorem W9_v151 : W9 m ρ c (Proc.devRef .tc main_v151) = val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) :=
  tail_eq (W8 m ρ c) (W8_v104 m ρ c)
    ((W8_of_ne m ρ c main_v17 (by decide)).trans ((rd22_v17 (W6 m ρ c)).trans ((rd21_v17 (W5 m ρ c)).trans (W5_v17 m ρ c))))
    ((W8_of_ne m ρ c main_v1 (by decide)).trans ((rd22_v1 (W6 m ρ c)).trans ((rd21_v1 (W5 m ρ c)).trans ((rd2_v1 (W4 m ρ c)).trans (W4_v1 m ρ c)))))
    ((W8_of_ne m ρ c main_v3 (by decide)).trans ((rd22_v3 (W6 m ρ c)).trans ((rd21_v3 (W5 m ρ c)).trans ((rd2_v3 (W4 m ρ c)).trans (W4_v3 m ρ c)))))

end Run

end Cert.KernelIdeal.Layer

end
-- ==== Proof.lean ====
/-
  The certificate of a two-layer gated graph convolution with a graph normalisation between the layers.

  The kernel program computes each layer's four node projections (key, query, value, skip) by ONE dense layer over the
  four weight matrices set side by side, and both layers' edge projections by one dense layer over the two edge matrices
  set side by side, then slices the results; the reference computes the ten projections one by one. Column j of a product
  with matrices set side by side is column j of the product with the piece that owns it — the same sum of the same
  products, no distributivity — so the slices are the reference's projections at every extended real, and the rest of the
  two programs (gathers, the logistic gate, the segment sums, the normalisation, the rectifier) is the same operations on
  them. The one place the two differ in arrangement is the skip term: the reference adds the skip product and then its
  bias to the aggregated messages, the kernel program adds their sum; addition of extended reals is associative, so no
  finiteness of the inputs is used anywhere.

  Frames: each kernel program is walked through its nine stretches with every buffer's contents named at each boundary
  (Proof/LayerRun*.lean over Proof/LayerBody*.lean); the reference's frame is its run with the result dropped. The
  idealization rewrote nothing, so what it must preserve is the trivial statement.
-/
import proofs.«150417_j61237643706857_2_alg».proof.Defs
import proofs.«150417_j61237643706857_2_alg».proof.Proof.Gen.Kernel
import proofs.«150417_j61237643706857_2_alg».proof.Proof.Gen.KernelIdeal
import proofs.«150417_j61237643706857_2_alg».proof.Proof.Gen.ReferenceIdeal
import proofs.«150417_j61237643706857_2_alg».proof.Proof.Gen.Pre_finite_inputs
import proofs.«150417_j61237643706857_2_alg».proof.Proof.Gen.ReferenceIdeal.Run
import proofs.«150417_j61237643706857_2_alg».proof.Proof.Gen.ReferenceIdeal.Read
import proofs.«150417_j61237643706857_2_alg».proof.Proof.Frames
import proofs.«150417_j61237643706857_2_alg».proof.Proof.Bridge
import Idealize.ShloMosaic.Adequacy
import Idealize.ShloMosaic.Init

noncomputable section

namespace Cert.Proof

open Idealize.ShloMosaic Idealize.ShloMosaic.TcCoe Idealize.SL.Sem

/-- At the extended reals both programs end with the reference's last stage of the launch arguments: the kernel program
    by its walk through the nine stretches, the reference by its run; the arguments agree. -/
theorem algebraic : Cert.algebraic_KernelIdeal_ReferenceIdeal := by
  intro m ρ m' ρ' _ hagree
  refine ⟨fun c => Cert.ReferenceIdeal.Read.val_main_v169 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20))
    (m ((c.tc : Thread Cert.KernelIdeal.nD Cert.KernelIdeal.τ).loc Cert.KernelIdeal.main_arg21))
    (m ((c.tc : Thread Cert.KernelIdeal.nD Cert.KernelIdeal.τ).loc Cert.KernelIdeal.main_arg22))
    (m ((c.tc : Thread Cert.KernelIdeal.nD Cert.KernelIdeal.τ).loc Cert.KernelIdeal.main_arg23))
    (m ((c.tc : Thread Cert.KernelIdeal.nD Cert.KernelIdeal.τ).loc Cert.KernelIdeal.main_arg24))
    (m ((c.tc : Thread Cert.KernelIdeal.nD Cert.KernelIdeal.τ).loc Cert.KernelIdeal.main_arg25))
    (m ((c.tc : Thread Cert.KernelIdeal.nD Cert.KernelIdeal.τ).loc Cert.KernelIdeal.main_arg26)), ?_, ?_⟩
  · refine (θ_run (Cert.KernelIdeal.defs (F := Ideal)) _ _).mono (fun r h c => ?_) (Cert.KernelIdeal.Layer.run_all (F := Ideal) m ρ)
    have key := fun (a : Ref Cert.KernelIdeal.sig .tc) (ha : a.idx.val < 27)
        (hs : ¬ (Proc.devRef .tc a : DevRef Cert.KernelIdeal.τ Cert.KernelIdeal.sig).isScoped) =>
      Cert.KernelIdeal.Layer.final_arg (F := Ideal) m ρ h c a ha hs
    exact ⟨(h c _ (Cert.KernelIdeal.Layer.mem_uc Cert.KernelIdeal.main_v151 (by decide))).trans (Cert.KernelIdeal.Layer.W9_v151 m ρ c),
      key Cert.KernelIdeal.main_arg0 (by decide) (by decide),
      key Cert.KernelIdeal.main_arg1 (by decide) (by decide),
      key Cert.KernelIdeal.main_arg2 (by decide) (by decide),
      key Cert.KernelIdeal.main_arg3 (by decide) (by decide),
      key Cert.KernelIdeal.main_arg4 (by decide) (by decide),
      key Cert.KernelIdeal.main_arg5 (by decide) (by decide),
      key Cert.KernelIdeal.main_arg6 (by decide) (by decide),
      key Cert.KernelIdeal.main_arg7 (by decide) (by decide),
      key Cert.KernelIdeal.main_arg8 (by decide) (by decide),
      key Cert.KernelIdeal.main_arg9 (by decide) (by decide),
      key Cert.KernelIdeal.main_arg10 (by decide) (by decide),
      key Cert.KernelIdeal.main_arg11 (by decide) (by decide),
      key Cert.KernelIdeal.main_arg12 (by decide) (by decide),
      key Cert.KernelIdeal.main_arg13 (by decide) (by decide),
      key Cert.KernelIdeal.main_arg14 (by decide) (by decide),
      key Cert.KernelIdeal.main_arg15 (by decide) (by decide),
      key Cert.KernelIdeal.main_arg16 (by decide) (by decide),
      key Cert.KernelIdeal.main_arg17 (by decide) (by decide),
      key Cert.KernelIdeal.main_arg18 (by decide) (by decide),
      key Cert.KernelIdeal.main_arg19 (by decide) (by decide),
      key Cert.KernelIdeal.main_arg20 (by decide) (by decide),
      key Cert.KernelIdeal.main_arg21 (by decide) (by decide),
      key Cert.KernelIdeal.main_arg22 (by decide) (by decide),
      key Cert.KernelIdeal.main_arg23 (by decide) (by decide),
      key Cert.KernelIdeal.main_arg24 (by decide) (by decide),
      key Cert.KernelIdeal.main_arg25 (by decide) (by decide),
      key Cert.KernelIdeal.main_arg26 (by decide) (by decide)⟩
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22, e23, e24, e25, e26⟩ := hagree c
    rw [Cert.ReferenceIdeal.Read.val_main_v169_eq, e0, e1, e2, e3, e4, e5, e6, e7, e8, e9, e10, e11, e12, e13, e14, e15, e16, e17, e18, e19, e20, e21, e22, e23, e24, e25, e26]

theorem claim : Cert.Claim := ⟨Cert.Kernel.Gen.facts, Cert.KernelIdeal.Gen.facts, Cert.ReferenceIdeal.Gen.facts, Cert.Pre_finite_inputs.Gen.facts,
  Cert.Proof.Frames.frame_k, Cert.Proof.Frames.frame_ki, Cert.Proof.Frames.frame_ri, trivial, algebraic⟩

end Cert.Proof

end
